-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S2048 .f32) (main_arg2 : FVec F S2048 .f32) (main_arg3 : FVec F S2048x8192 .f32) (main_arg4 : FVec F S8192 .f32) (main_arg5 : FVec F S8192x2048 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S1x2048 : Shape := ⟨2, ![1, 2048]⟩
abbrev S1x8192 : Shape := ⟨2, ![1, 8192]⟩
abbrev S512x2048 : Shape := ⟨2, ![512, 2048]⟩
abbrev S2048x512 : Shape := ⟨2, ![2048, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x8192, .f32⟩
  | .hbm, ⟨10, _⟩ => ⟨S1x2048, .f32⟩
  | .hbm, ⟨11, _⟩ => ⟨S2048x8192, .bf16⟩
  | .hbm, ⟨12, _⟩ => ⟨S8192x2048, .bf16⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c0_i32_13 : BitVec 32 := 0#32
  let v28 : BitVec 1 := Scalar.cmpi .eq arg1 c0_i32_13
  let v29 : BitVec 32 := Scalar.extui v28
  let c0_i32_14 : BitVec 32 := 0#32
  let v30 : BitVec 1 := Scalar.cmpi .ne v29 c0_i32_14
  v30

def k0_cond3 (i : grid0.Coords) : BitVec 1 :=
  let arg1 : BitVec 32 := BitVec.ofNat 32 (i 1).val
  let c0_i32_15 : BitVec 32 := 0#32
  let v31 : BitVec 1 := Scalar.cmpi .ne arg1 c0_i32_15
  let v32 : BitVec 32 := Scalar.extui v31
  let c0_i32_16 : BitVec 32 := 0#32
  let v33 : BitVec 1 := Scalar.cmpi .ne v32 c0_i32_16
  v33

def k0_cond4 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2048_S1x2048 : S2048.ShapeCasts S1x2048
  shapeCasts_S8192_S1x8192 : S8192.ShapeCasts S1x8192
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .f32 = 32 ∨ (Rect.block (s := S8192x2048) S512x2048.size (cc0_transform_7 i) (hinb0_7 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) && !(k0_cond3 i == 1#1) && !(k0_cond4 i == 1#1) | ⟨_ + 8, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S_ : Shape := ⟨0, ![]⟩
abbrev S8192x1 : Shape := ⟨2, ![8192, 1]⟩
abbrev S1x2048 : Shape := ⟨2, ![1, 2048]⟩
abbrev S8192x8192 : Shape := ⟨2, ![8192, 8192]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192, .f32⟩
  | .hbm, ⟨5, _⟩ => ⟨S8192x2048, .f32⟩
  | .hbm, ⟨6, _⟩ => ⟨S2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.Bits.Cases.lean ====
/-
  The body's four branches, decided over the grid, and what the body is handed at a point.

  The grid is 16 row tiles by 16 hidden tiles, the hidden tile `k` innermost: point `t` has `k = t mod 16`.
  The body normalises its rows into the scratch and stores the first partial product where `k = 0`, adds the partial
  product to the output block where `k ≠ 0`, and adds the second bias where `k = 15`.  So every point is in exactly one
  of three cases: the first hidden tile, a middle one, the last.  The output block is stored into at every point.
-/
import proofs.«180789_j79671643341681_2_alg».proof.Proof.Gen.Kernel.Frame
import proofs.«180789_j79671643341681_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (normalise the rows into the scratch): the hidden tile is the first. -/
abbrev isFirstLN (i : grid0.Coords) : Prop :=
  (Scalar.cmpi .ne (Scalar.extui (Scalar.cmpi .eq (BitVec.ofNat 32 (i 1).val) 0#32)) 0#32) = 1#1
/-- The second branch (store the partial product): the hidden tile is the first. -/
abbrev isFirst (i : grid0.Coords) : Prop := k0_cond2 i = 1#1
/-- The third branch (add the partial product to the block): the hidden tile is not the first. -/
abbrev isLater (i : grid0.Coords) : Prop := k0_cond3 i = 1#1
/-- The fourth branch (add the second bias): the hidden tile is the last. -/
abbrev isLast (i : grid0.Coords) : Prop := k0_cond4 i = 1#1

theorem isFirstLN_iff : ∀ t : Fin cfg0.N, isFirstLN (grid0.coords t) ↔ t.val % 16 = 0 :=
  (by decide +kernel : ∀ t : Fin grid0.N, isFirstLN (grid0.coords t) ↔ t.val % 16 = 0)
theorem isFirst_iff : ∀ t : Fin cfg0.N, isFirst (grid0.coords t) ↔ t.val % 16 = 0 :=
  (by decide +kernel : ∀ t : Fin grid0.N, isFirst (grid0.coords t) ↔ t.val % 16 = 0)
theorem isLater_iff : ∀ t : Fin cfg0.N, isLater (grid0.coords t) ↔ ¬ t.val % 16 = 0 :=
  (by decide +kernel : ∀ t : Fin grid0.N, isLater (grid0.coords t) ↔ ¬ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## No window is idle anywhere: the inputs never, the output because some store reaches it at every point -/

theorem live : ∀ (w : Fin cfg0.W) (t : Fin cfg0.N), cfg0.idle w (grid0.coords t) = false := by decide +kernel

/-! ## What the body is called with -/

/-- Window `w`'s current staging memref at point `t`, as the pipeline passes it, and its wholeness. -/
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x2048 .f32 := win0_7.stage (cfg0.slots t 7)
abbrev hs7 (t : Fin cfg0.N) : (ms7 t).IsWhole := hstage0_7 ((cfg0.slots t 7).cast nbuf0_7)
/-- The scratch that holds the normalised rows from the first hidden tile to the last. -/
abbrev scM : Memref sig .tc .vmem S512x2048 .bf16 := Memref.whole cc0_scratch0

/-- The class invariant with the one scratch buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.Bits.RunFirst.lean ====
/-
  The body at a point of the FIRST hidden tile, run once on any whole staging memrefs.

  Handed the seven input blocks at their contents and the output block's buffer and the scratch at anything, the body
  normalises the rows into the scratch, reads the scratch back, and stores the first partial product over the whole output
  block.  It ends with the inputs as they were and the two written buffers at what their stores left; the stores' pieces are
  the witness, found as the run hands each buffer to the continuation.
-/
import proofs.«180789_j79671643341681_2_alg».proof.Proof.Bits.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the first hidden tile's stores leave in the output block's buffer and in the scratch, with the proof that the
    body runs to a continuation holding them. -/
noncomputable def runFirst (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
    (h1 : isFirstLN i) (h2 : isFirst i) (h3 : ¬isLater i) (h4 : ¬isLast i) (x0 : Vec F S512x2048 .f32) (x1 x2 : Vec F S1x2048 .f32) (x3 : Vec F S2048x512 .bf16) (x4 : Vec F S1x512 .f32) (x5 : Vec F S512x2048 .bf16) (x6 : Vec F S1x2048 .f32) :
    Σ' (LO : List (View.Piece (Elt F) S512x2048 .f32)), { LS : List (View.Piece (Elt F) S512x2048 .bf16) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ (∃ f, arg10.view.loc (c : Thread nD τ) ↦[arg10.view.set]{fullShare} arg10.view.writes (Elt F) f LS)) -∗ K ⟨⟩))
          ⊢ wp frame (wpE (defs₀ (F := F)) Variants.none c none) Set.univ (cc0__kernel i arg2 harg2 arg3 harg3 arg4 harg4 arg5 harg5 arg6 harg6 arg7 harg7 arg8 harg8 arg9 harg9 arg10 harg10) K } := by
  refine ⟨?_, ?_, fun K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Body

end
-- ==== Proof.Bits.RunMiddle.lean ====
/-
  The body at a point of a MIDDLE hidden tile (neither the first nor the last), run once on any whole staging memrefs.

  Handed the seven input blocks, the output block's buffer at what the point before left and the scratch at the normalised
  rows, the body reads the scratch, forms the partial product of this hidden tile, adds it to what the buffer holds and stores
  the total over the whole block.  It ends with the inputs and the scratch as they were and the output buffer at what its one
  store left.
-/
import proofs.«180789_j79671643341681_2_alg».proof.Proof.Bits.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece a middle hidden tile's store leaves in the output block's buffer, with the proof that the body runs to a continuation holding it. -/
noncomputable def runMiddle (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
    (h1 : ¬isFirstLN i) (h2 : ¬isFirst i) (h3 : isLater i) (h4 : ¬isLast i) (x0 : Vec F S512x2048 .f32) (x1 x2 : Vec F S1x2048 .f32) (x3 : Vec F S2048x512 .bf16) (x4 : Vec F S1x512 .f32) (x5 : Vec F S512x2048 .bf16) (x6 : Vec F S1x2048 .f32)
    (xo : Vec F S512x2048 .f32) (xs : Vec F S512x2048 .bf16) :
    { LO : List (View.Piece (Elt F) S512x2048 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ owns (c : Thread nD τ) arg10 fullShare xs) -∗ K ⟨⟩))
          ⊢ wp frame (wpE (defs₀ (F := F)) Variants.none c none) Set.univ (cc0__kernel i arg2 harg2 arg3 harg3 arg4 harg4 arg5 harg5 arg6 harg6 arg7 harg7 arg8 harg8 arg9 harg9 arg10 harg10) K } := by
  refine ⟨?_, fun K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS

end Cert.Kernel.Body

end
-- ==== Proof.Bits.RunLast.lean ====
/-
  The body at a point of the LAST hidden tile, run once on any whole staging memrefs.

  As at a middle tile the body adds this tile's partial product to what the output buffer holds and stores the total; it then
  reads the total back, adds the second layer's bias to every row, and stores the block again.  It ends with the inputs and the
  scratch as they were and the output buffer at what its two stores left, the later over the earlier.
-/
import proofs.«180789_j79671643341681_2_alg».proof.Proof.Bits.RunMiddle

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the last hidden tile's two stores leave in the output block's buffer (the later first), with the proof that the body runs to a continuation holding them. -/
noncomputable def runLast (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
    (h1 : ¬isFirstLN i) (h2 : ¬isFirst i) (h3 : isLater i) (h4 : isLast i) (x0 : Vec F S512x2048 .f32) (x1 x2 : Vec F S1x2048 .f32) (x3 : Vec F S2048x512 .bf16) (x4 : Vec F S1x512 .f32) (x5 : Vec F S512x2048 .bf16) (x6 : Vec F S1x2048 .f32)
    (xo : Vec F S512x2048 .f32) (xs : Vec F S512x2048 .bf16) :
    { LO : List (View.Piece (Elt F) S512x2048 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ owns (c : Thread nD τ) arg10 fullShare xs) -∗ K ⟨⟩))
          ⊢ wp frame (wpE (defs₀ (F := F)) Variants.none c none) Set.univ (cc0__kernel i arg2 harg2 arg3 harg3 arg4 harg4 arg5 harg5 arg6 harg6 arg7 harg7 arg8 harg8 arg9 harg9 arg10 harg10) K } := by
  refine ⟨?_, fun K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS

end Cert.Kernel.Body

end
-- ==== Proof.Bits.Pieces.lean ====
/-
  What each run's stores leave, read back: the kernel's named terms of the values the body was handed.

  Every store of this kernel covers its whole buffer through the rectangle at zero offsets, so what a buffer reads after a
  run's stores is the payload of the last of them, whatever it held before.  A payload that mentions a load made after a store
  (the scratch read back after it was filled; the running total read back before the bias is added) reads that store's payload
  in turn.  Stated once per run and buffer, over any memrefs, for any prior contents `f`.
-/
import proofs.«180789_j79671643341681_2_alg».proof.Proof.Bits.RunLast
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets every access of this kernel uses are zero. -/
theorem zeroOff : (![0, 0] : Fin 2 → Nat) = fun _ => 0 := by
  funext a; match a with | ⟨0, _⟩ => rfl | ⟨1, _⟩ => rfl

section First
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
  (h1 : isFirstLN i) (h2 : isFirst i) (h3 : ¬isLater i) (h4 : ¬isLast i) (x0 : Vec F S512x2048 .f32) (x1 x2 : Vec F S1x2048 .f32) (x3 : Vec F S2048x512 .bf16) (x4 : Vec F S1x512 .f32) (x5 : Vec F S512x2048 .bf16) (x6 : Vec F S1x2048 .f32)

/-- At a first hidden tile the scratch ends at the normalised rows. -/
theorem first_scratch (f : arg10.view.ty.Contents (Elt F)) :
    arg10.view.read (Elt F) (arg10.view.writes (Elt F) f (runFirst c i arg2 harg2 arg3 harg3 arg4 harg4 arg5 harg5 arg6 harg6 arg7 harg7 arg8 harg8 arg9 harg9 arg10 harg10 h1 h2 h3 h4 x0 x1 x2 x3 x4 x5 x6).2.1)
      = k0_pay2 x0 x1 x2 := by
  rw [View.read_writes_eq_canon _ _ _ (fun y => View.cover_of_tiledL _ S512x2048.size (by sl_kernel_rfl) y)]
  unfold runFirst; dsimp only; sl_unfold_words
  rw [View.canon_unit_zero zeroOff]
  simp only [View.readAt_eq_ld, harg2.read_unread, harg3.read_unread, harg4.read_unread,
    View.ld_unit_zero (S := S512x2048) zeroOff, View.ld_unit_zero (S := S1x2048) zeroOff]
  try rfl

/-- At a first hidden tile the output buffer ends at the first partial product, formed from the normalised rows. -/
theorem first_out (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 h1 h2 h3 h4 x0 x1 x2 x3 x4 x5 x6).1)
      = k0_pay3 (k0_pay2 x0 x1 x2) x3 x4 x5 := by
  rw [View.read_writes_eq_canon _ _ _ (fun y => View.cover_of_tiledL _ S512x2048.size (by sl_kernel_rfl) y)]
  unfold runFirst; dsimp only; sl_unfold_words
  rw [View.canon_unit_zero zeroOff, View.readCov_unit_zero (S := S512x2048) _ zeroOff]
  simp only [View.readAt_eq_ld, harg2.read_unread, harg3.read_unread, harg4.read_unread,
    harg5.read_unread, harg6.read_unread, harg7.read_unread,
    View.ld_unit_zero (S := S512x2048) zeroOff, View.ld_unit_zero (S := S1x2048) zeroOff,
    View.ld_unit_zero (S := S2048x512) zeroOff, View.ld_unit_zero (S := S1x512) zeroOff]

end First

section Later
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole) (x0 : Vec F S512x2048 .f32) (x1 x2 : Vec F S1x2048 .f32) (x3 : Vec F S2048x512 .bf16) (x4 : Vec F S1x512 .f32) (x5 : Vec F S512x2048 .bf16) (x6 : Vec F S1x2048 .f32)
  (xo : Vec F S512x2048 .f32) (xs : Vec F S512x2048 .bf16)

/-- At a middle hidden tile the output buffer ends at what it held plus this tile's partial product. -/
theorem middle_out (h1 : ¬isFirstLN i) (h2 : ¬isFirst i) (h3 : isLater i) (h4 : ¬isLast i) (f : arg9.view.ty.Contents (Elt F)) :
    arg9.view.read (Elt F) (arg9.view.writes (Elt F) f (runMiddle c i arg2 harg2 arg3 harg3 arg4 harg4 arg5 harg5 arg6 harg6 arg7 harg7 arg8 harg8 arg9 harg9 arg10 harg10 h1 h2 h3 h4 x0 x1 x2 x3 x4 x5 x6 xo xs).1)
      = k0_pay4 xs x3 x4 x5 xo := by
  rw [View.read_writes_eq_canon _ _ _ (fun y => View.cover_of_tiledL _ S512x2048.size (by sl_kernel_rfl) y)]
  unfold runMiddle; dsimp only; sl_unfold_words
  rw [View.canon_unit_zero zeroOff]
  simp only [View.readAt_eq_ld, harg5.read_unread, harg6.read_unread, harg7.read_unread, harg9.read_unread, harg10.read_unread,
    View.ld_unit_zero (S := S512x2048) zeroOff, View.ld_unit_zero (S := S2048x512) zeroOff, View.ld_unit_zero (S := S1x512) zeroOff]
  try rfl

/-- At the last hidden tile the output buffer ends at that total plus the second bias. -/
theorem last_out (h1 : ¬isFirstLN i) (h2 : ¬isFirst i) (h3 : isLater i) (h4 : isLast i) (f : arg9.view.ty.Contents (Elt F)) :
    arg9.view.read (Elt F) (arg9.view.writes (Elt F) f (runLast c i arg2 harg2 arg3 harg3 arg4 harg4 arg5 harg5 arg6 harg6 arg7 harg7 arg8 harg8 arg9 harg9 arg10 harg10 h1 h2 h3 h4 x0 x1 x2 x3 x4 x5 x6 xo xs).1)
      = k0_pay1 (k0_pay4 xs x3 x4 x5 xo) x6 := by
  rw [View.read_writes_eq_canon _ _ _ (fun y => View.cover_of_tiledL _ S512x2048.size (by sl_kernel_rfl) y)]
  unfold runLast; dsimp only; sl_unfold_words
  rw [View.canon_cons_unit_zero zeroOff, View.readCov_unit_zero (S := S512x2048) _ zeroOff]
  simp only [View.readAt_eq_ld, harg5.read_unread, harg6.read_unread, harg7.read_unread,
    harg8.read_unread, harg9.read_unread, harg10.read_unread,
    View.ld_unit_zero (S := S512x2048) zeroOff, View.ld_unit_zero (S := S1x2048) zeroOff,
    View.ld_unit_zero (S := S2048x512) zeroOff, View.ld_unit_zero (S := S1x512) zeroOff]

end Later

end Cert.Kernel.Body

end
-- ==== Proof.Bits.Held.lean ====
/-
  What the kernel holds from point to point, and the proof data of its one pipeline.

  Two buffers carry values between points.  The scratch holds the normalised rows of the current row tile: written at the
  tile's first hidden tile, read at all sixteen.  The output block's buffer holds the running total of the partial products:
  the first hidden tile stores its partial product, each later one adds its own, the last adds the second bias on top; the
  pipeline writes the block back after the last.  Both are stated here in the kernel's own named terms of the blocks at
  each point, by recursion on the point; the three runs are then shown to leave exactly these.
-/
import proofs.«180789_j79671643341681_2_alg».proof.Proof.Bits.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window 0's block at point `t` (the rows), at its literal type. -/
def blk0 (c : Dev nD) (t : Fin cfg0.N) : Vec F S512x2048 .f32 := iblk m c 0 t
/-- Window 1's block at point `t` (the scale), at its literal type. -/
def blk1 (c : Dev nD) (t : Fin cfg0.N) : Vec F S1x2048 .f32 := iblk m c 1 t
/-- Window 2's block at point `t` (the shift), at its literal type. -/
def blk2 (c : Dev nD) (t : Fin cfg0.N) : Vec F S1x2048 .f32 := iblk m c 2 t
/-- Window 3's block at point `t` (the first layer's weights), at its literal type. -/
def blk3 (c : Dev nD) (t : Fin cfg0.N) : Vec F S2048x512 .bf16 := iblk m c 3 t
/-- Window 4's block at point `t` (the first layer's biases), at its literal type. -/
def blk4 (c : Dev nD) (t : Fin cfg0.N) : Vec F S1x512 .f32 := iblk m c 4 t
/-- Window 5's block at point `t` (the second layer's weights), at its literal type. -/
def blk5 (c : Dev nD) (t : Fin cfg0.N) : Vec F S512x2048 .bf16 := iblk m c 5 t
/-- Window 6's block at point `t` (the second layer's biases), at its literal type. -/
def blk6 (c : Dev nD) (t : Fin cfg0.N) : Vec F S1x2048 .f32 := iblk m c 6 t

/-- The normalised rows, as the body at a first hidden tile computes them from its blocks. -/
def lnAt (c : Dev nD) (t : Fin cfg0.N) : Vec F S512x2048 .bf16 := k0_pay2 (blk0 m c t) (blk1 m c t) (blk2 m c t)

/-! ## What the output buffer and the scratch hold after each point -/

/-- After the body at position `n`: the output block's buffer, then the scratch.  At a first hidden tile the first partial
    product and the freshly normalised rows; at a later one the total so far plus this tile's partial product (plus the second
    bias at the last), the scratch as the point before left it. -/
def heldAt (c : Dev nD) : (n : ℕ) → n < cfg0.N → Vec F S512x2048 .f32 × Vec F S512x2048 .bf16
  | 0, hn => (k0_pay3 (lnAt m c ⟨0, hn⟩) (blk3 m c ⟨0, hn⟩) (blk4 m c ⟨0, hn⟩) (blk5 m c ⟨0, hn⟩), lnAt m c ⟨0, hn⟩)
  | n + 1, hn =>
    if (n + 1) % 16 = 0 then
      (k0_pay3 (lnAt m c ⟨n + 1, hn⟩) (blk3 m c ⟨n + 1, hn⟩) (blk4 m c ⟨n + 1, hn⟩) (blk5 m c ⟨n + 1, hn⟩), lnAt m c ⟨n + 1, hn⟩)
    else if (n + 1) % 16 = 15 then
      (k0_pay1 (k0_pay4 (heldAt c n (Nat.lt_of_succ_lt hn)).2 (blk3 m c ⟨n + 1, hn⟩) (blk4 m c ⟨n + 1, hn⟩) (blk5 m c ⟨n + 1, hn⟩) (heldAt c n (Nat.lt_of_succ_lt hn)).1) (blk6 m c ⟨n + 1, hn⟩),
        (heldAt c n (Nat.lt_of_succ_lt hn)).2)
    else
      (k0_pay4 (heldAt c n (Nat.lt_of_succ_lt hn)).2 (blk3 m c ⟨n + 1, hn⟩) (blk4 m c ⟨n + 1, hn⟩) (blk5 m c ⟨n + 1, hn⟩) (heldAt c n (Nat.lt_of_succ_lt hn)).1,
        (heldAt c n (Nat.lt_of_succ_lt hn)).2)

/-- The point before `t`, as a position. -/
abbrev predLt (t : Fin cfg0.N) : t.val - 1 < cfg0.N := Nat.lt_of_le_of_lt (Nat.sub_le _ _) t.isLt

theorem heldAt_first (c : Dev nD) (t : Fin cfg0.N) (h : t.val % 16 = 0) :
    heldAt m c t.val t.isLt = (k0_pay3 (lnAt m c t) (blk3 m c t) (blk4 m c t) (blk5 m c t), lnAt m c t) := by
  obtain ⟨n, hn⟩ := t
  cases n with
  | zero => rfl
  | succ n => exact (if_pos h).trans rfl

theorem heldAt_middle (c : Dev nD) (t : Fin cfg0.N) (h0 : ¬t.val % 16 = 0) (h15 : ¬t.val % 16 = 15) :
    heldAt m c t.val t.isLt
      = (k0_pay4 (heldAt m c (t.val - 1) (predLt t)).2 (blk3 m c t) (blk4 m c t) (blk5 m c t) (heldAt m c (t.val - 1) (predLt t)).1,
          (heldAt m c (t.val - 1) (predLt t)).2) := by
  obtain ⟨n, hn⟩ := t
  cases n with
  | zero => exact absurd (Nat.zero_mod _) h0
  | succ n => exact (if_neg h0).trans ((if_neg h15).trans rfl)

theorem heldAt_last (c : Dev nD) (t : Fin cfg0.N) (h15 : t.val % 16 = 15) :
    heldAt m c t.val t.isLt
      = (k0_pay1 (k0_pay4 (heldAt m c (t.val - 1) (predLt t)).2 (blk3 m c t) (blk4 m c t) (blk5 m c t) (heldAt m c (t.val - 1) (predLt t)).1) (blk6 m c t),
          (heldAt m c (t.val - 1) (predLt t)).2) := by
  obtain ⟨n, hn⟩ := t
  cases n with
  | zero => exact absurd (show 0 % 16 = 15 from h15) (by omega)
  | succ n =>
    have h15' : (n + 1) % 16 = 15 := h15
    exact (if_neg (by omega)).trans ((if_pos h15').trans rfl)

/-! ## The invariant: the scratch at what the point before left -/

/-- Before position `n`: before the first point the scratch holds anything; afterwards what the point before left in it. -/
def PhiS (c : Dev nD) : (n : ℕ) → n ≤ cfg0.N → sProp 𝕄
  | 0, _ => Pipeline.ΦA spec0 c
  | n + 1, hn => iprop(iprop(owns (c : Thread nD τ) scM fullShare ((heldAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((heldAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((heldAt m c (n - 1) (by omega)).2)) ∗ (∃ r, prngReg c r)) := by
  cases n with
  | zero => exact absurd rfl hz
  | succ n => rfl

/-! ## The proof data -/

/-- The arrays as the region finds them; after the body each input's buffer at its block and the output's at the running
    total; the invariant the scratch's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (heldAt m c t.val t.isLt).1
    | ⟨n + 8, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (heldAt m c t.val t.isLt).1 := by dsimp only [dats]

theorem before0 (c : Dev nD) (t : Fin cfg0.N) (d) : (dats m 0 c).before 0 t d = blk0 m c t :=
  before0_0_of m (dats m 0 c) (A_eq m c 0) (after0 m c) t d
theorem before1 (c : Dev nD) (t : Fin cfg0.N) (d) : (dats m 0 c).before 1 t d = blk1 m c t :=
  before0_1_of m (dats m 0 c) (A_eq m c 1) (after1 m c) t d
theorem before2 (c : Dev nD) (t : Fin cfg0.N) (d) : (dats m 0 c).before 2 t d = blk2 m c t :=
  before0_2_of m (dats m 0 c) (A_eq m c 2) (after2 m c) t d
theorem before3 (c : Dev nD) (t : Fin cfg0.N) (d) : (dats m 0 c).before 3 t d = blk3 m c t :=
  before0_3_of m (dats m 0 c) (A_eq m c 3) (after3 m c) t d
theorem before4 (c : Dev nD) (t : Fin cfg0.N) (d) : (dats m 0 c).before 4 t d = blk4 m c t :=
  before0_4_of m (dats m 0 c) (A_eq m c 4) (after4 m c) t d
theorem before5 (c : Dev nD) (t : Fin cfg0.N) (d) : (dats m 0 c).before 5 t d = blk5 m c t :=
  before0_5_of m (dats m 0 c) (A_eq m c 5) (after5 m c) t d
theorem before6 (c : Dev nD) (t : Fin cfg0.N) (d) : (dats m 0 c).before 6 t d = blk6 m c t :=
  before0_6_of m (dats m 0 c) (A_eq m c 6) (after6 m c) t d

/-- The output block is stored into at every hidden tile, whatever the row tile: at the first by the second branch, at the
    others by the third.  The three conditions read the hidden-tile coordinate only, so sixteen cases decide it. -/
theorem live7 (i : grid0.Coords) : cfg0.idle 7 i = false :=
  (by decide +kernel : ∀ k : Fin 16,
      (!(Scalar.cmpi .ne (Scalar.extui (Scalar.cmpi .eq (BitVec.ofNat 32 k.val) (0#32))) (0#32) == 1#1)
        && !(Scalar.cmpi .ne (Scalar.extui (Scalar.cmpi .ne (BitVec.ofNat 32 k.val) (0#32))) (0#32) == 1#1)
        && !(Scalar.cmpi .ne (Scalar.extui (Scalar.cmpi .eq (BitVec.ofNat 32 k.val) (15#32))) (0#32) == 1#1)) = false) (i 1)

/-- At a later hidden tile the output block's buffer holds what the point before left: it is not written back between. -/
theorem before7_later (c : Dev nD) (t : Fin cfg0.N) (h0 : ¬t.val % 16 = 0) (d) :
    (dats m 0 c).before 7 t d = (heldAt m c (t.val - 1) (predLt t)).1 := by
  have ht : t.val ≠ 0 := fun h => h0 (by rw [h])
  have hN : t.val < 256 := lt_of_lt_of_eq t.isLt (show cfg0.N = 256 from N_0)
  rw [(dats m 0 c).before_out_kept 7 rfl t ht
    (by
      cases hfl : (cfg0.win 7).flush ⟨t.val - 1, predLt t⟩ with
      | false => rfl
      | true => exact absurd ((flush0_7 ⟨t.val - 1, predLt t⟩).mp hfl) (by dsimp only; omega))
    (fun i => live7 i) (fun _ _ => rfl) d, after7]

end Cert.Kernel.Body

end
-- ==== Proof.Bits.Obligation.lean ====
/-
  The body's triple at every grid point, the launch, and the frame.

  At a point the pipeline hands the body the eight windows' current buffers (each input at its block, the output's at what the
  point before left unless a new row tile begins) and the invariant (the scratch at what the point before left).  Which of the
  three runs applies is decided by the hidden tile, `t mod 16`; each run's stores, read back, are the terms the proof data
  names.  The launch theorem then gives the run of the whole program, and from it the arguments are unchanged.
-/
import proofs.«180789_j79671643341681_2_alg».proof.Proof.Bits.Pieces
import proofs.«180789_j79671643341681_2_alg».proof.Proof.Bits.Held

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- No window is idle, so each buffer is left at exactly what the proof data names. -/
theorem leaves0 (c : Dev nD) (t : Fin cfg0.N) :
    (dats m 0 c).leavesExact 0 t = owns (c : Thread nD τ) (ms0 t) fullShare ((dats m 0 c).after 0 t) := by
  unfold Dat.leavesExact; rw [live 0 t]
theorem leaves1 (c : Dev nD) (t : Fin cfg0.N) :
    (dats m 0 c).leavesExact 1 t = owns (c : Thread nD τ) (ms1 t) fullShare ((dats m 0 c).after 1 t) := by
  unfold Dat.leavesExact; rw [live 1 t]
theorem leaves2 (c : Dev nD) (t : Fin cfg0.N) :
    (dats m 0 c).leavesExact 2 t = owns (c : Thread nD τ) (ms2 t) fullShare ((dats m 0 c).after 2 t) := by
  unfold Dat.leavesExact; rw [live 2 t]
theorem leaves3 (c : Dev nD) (t : Fin cfg0.N) :
    (dats m 0 c).leavesExact 3 t = owns (c : Thread nD τ) (ms3 t) fullShare ((dats m 0 c).after 3 t) := by
  unfold Dat.leavesExact; rw [live 3 t]
theorem leaves4 (c : Dev nD) (t : Fin cfg0.N) :
    (dats m 0 c).leavesExact 4 t = owns (c : Thread nD τ) (ms4 t) fullShare ((dats m 0 c).after 4 t) := by
  unfold Dat.leavesExact; rw [live 4 t]
theorem leaves5 (c : Dev nD) (t : Fin cfg0.N) :
    (dats m 0 c).leavesExact 5 t = owns (c : Thread nD τ) (ms5 t) fullShare ((dats m 0 c).after 5 t) := by
  unfold Dat.leavesExact; rw [live 5 t]
theorem leaves6 (c : Dev nD) (t : Fin cfg0.N) :
    (dats m 0 c).leavesExact 6 t = owns (c : Thread nD τ) (ms6 t) fullShare ((dats m 0 c).after 6 t) := by
  unfold Dat.leavesExact; rw [live 6 t]
theorem leaves7 (c : Dev nD) (t : Fin cfg0.N) :
    (dats m 0 c).leavesExact 7 t = owns (c : Thread nD τ) (ms7 t) fullShare ((dats m 0 c).after 7 t) := by
  unfold Dat.leavesExact; rw [live 7 t]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t, leaves6 m c t, leaves7 m c t,
    after0, after1, after2, after3, after4, after5, after6, after7]
  rw [show iblk m c 0 t = blk0 m c t from rfl, show iblk m c 1 t = blk1 m c t from rfl, show iblk m c 2 t = blk2 m c t from rfl,
    show iblk m c 3 t = blk3 m c t from rfl, show iblk m c 4 t = blk4 m c t from rfl, show iblk m c 5 t = blk5 m c t from rfl,
    show iblk m c 6 t = blk6 m c t from rfl]
  have hN : t.val < 256 := lt_of_lt_of_eq t.isLt (show cfg0.N = 256 from N_0)
  by_cases h0 : t.val % 16 = 0
  · rw [heldAt_first m c t h0]; dsimp only [lnAt]
    by_cases hz : t.val = 0
    · rw [Phi_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hg]
      · isplitl [HS]
        · unfold owns; iexists _; isplitr
          swap; · iexact HS
          ipureintro; exact first_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact first_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
    · rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, ⟨%e7, H7⟩, ⟨%es, HS⟩⟩
      isplitl [HS Hg]
      · isplitl [HS]
        · unfold owns; iexists _; isplitr
          swap; · iexact HS
          ipureintro; exact first_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact first_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
  · have hz : t.val ≠ 0 := fun h => h0 (by rw [h])
    simp only [before7_later m c t h0]
    by_cases h15 : t.val % 16 = 15
    · rw [heldAt_last m c t h15]; dsimp only
      rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirstLN_iff t).mp h)) (fun h => h0 ((isFirst_iff t).mp h)) ((isLater_iff t).mpr h0) ((isLast_iff t).mpr h15) (blk0 m c t) (blk1 m c t) (blk2 m c t) (blk3 m c t) (blk4 m c t) (blk5 m c t) (blk6 m c t) (heldAt m c (t.val - 1) (predLt t)).1 (heldAt m c (t.val - 1) (predLt t)).2).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, ⟨%e7, H7⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact last_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (blk0 m c t) (blk1 m c t) (blk2 m c t) (blk3 m c t) (blk4 m c t) (blk5 m c t) (blk6 m c t) (heldAt m c (t.val - 1) (predLt t)).1 (heldAt m c (t.val - 1) (predLt t)).2 (fun h => h0 ((isFirstLN_iff t).mp h)) (fun h => h0 ((isFirst_iff t).mp h)) ((isLater_iff t).mpr h0) ((isLast_iff t).mpr h15) _
    · rw [heldAt_middle m c t h0 h15]; dsimp only
      rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirstLN_iff t).mp h)) (fun h => h0 ((isFirst_iff t).mp h)) ((isLater_iff t).mpr h0) (fun h => h15 ((isLast_iff t).mp h)) (blk0 m c t) (blk1 m c t) (blk2 m c t) (blk3 m c t) (blk4 m c t) (blk5 m c t) (blk6 m c t) (heldAt m c (t.val - 1) (predLt t)).1 (heldAt m c (t.val - 1) (predLt t)).2).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, ⟨%e7, H7⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact middle_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (blk0 m c t) (blk1 m c t) (blk2 m c t) (blk3 m c t) (blk4 m c t) (blk5 m c t) (blk6 m c t) (heldAt m c (t.val - 1) (predLt t)).1 (heldAt m c (t.val - 1) (predLt t)).2 (fun h => h0 ((isFirstLN_iff t).mp h)) (fun h => h0 ((isFirst_iff t).mp h)) ((isLater_iff t).mpr h0) (fun h => h15 ((isLast_iff t).mp h)) _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's named contents are forgotten. -/
theorem hout (c : Dev nD) : (dats m 0 c).Φ (Fin.last cfg0.N) ⊢ Pipeline.ΦA spec0 c := by
  have hl : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨HS, Hg⟩
  isplitl [HS]
  · iexists _; iexact HS
  iexact Hg

set_option backward.isDefEq.respectTransparency.types false in
/-- Every weakly fair execution of the program terminates, faults nowhere, and ends with every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and leaves its seven arguments as they were, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.Cases.lean ====
/-
  The body's four branches, decided over the grid, and what the body is handed at a point.

  The grid is 16 row tiles by 16 hidden tiles, the hidden tile `k` innermost: point `t` has `k = t mod 16`.
  The body normalises its rows into the scratch and stores the first partial product where `k = 0`, adds the partial
  product to the output block where `k ≠ 0`, and adds the second bias where `k = 15`.  So every point is in exactly one
  of three cases: the first hidden tile, a middle one, the last.  The output block is stored into at every point.
-/
import proofs.«180789_j79671643341681_2_alg».proof.Proof.Gen.KernelIdeal.Frame
import proofs.«180789_j79671643341681_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (normalise the rows into the scratch): the hidden tile is the first. -/
abbrev isFirstLN (i : grid0.Coords) : Prop :=
  (Scalar.cmpi .ne (Scalar.extui (Scalar.cmpi .eq (BitVec.ofNat 32 (i 1).val) 0#32)) 0#32) = 1#1
/-- The second branch (store the partial product): the hidden tile is the first. -/
abbrev isFirst (i : grid0.Coords) : Prop := k0_cond2 i = 1#1
/-- The third branch (add the partial product to the block): the hidden tile is not the first. -/
abbrev isLater (i : grid0.Coords) : Prop := k0_cond3 i = 1#1
/-- The fourth branch (add the second bias): the hidden tile is the last. -/
abbrev isLast (i : grid0.Coords) : Prop := k0_cond4 i = 1#1

theorem isFirstLN_iff : ∀ t : Fin cfg0.N, isFirstLN (grid0.coords t) ↔ t.val % 16 = 0 :=
  (by decide +kernel : ∀ t : Fin grid0.N, isFirstLN (grid0.coords t) ↔ t.val % 16 = 0)
theorem isFirst_iff : ∀ t : Fin cfg0.N, isFirst (grid0.coords t) ↔ t.val % 16 = 0 :=
  (by decide +kernel : ∀ t : Fin grid0.N, isFirst (grid0.coords t) ↔ t.val % 16 = 0)
theorem isLater_iff : ∀ t : Fin cfg0.N, isLater (grid0.coords t) ↔ ¬ t.val % 16 = 0 :=
  (by decide +kernel : ∀ t : Fin grid0.N, isLater (grid0.coords t) ↔ ¬ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## No window is idle anywhere: the inputs never, the output because some store reaches it at every point -/

theorem live : ∀ (w : Fin cfg0.W) (t : Fin cfg0.N), cfg0.idle w (grid0.coords t) = false := by decide +kernel

/-! ## What the body is called with -/

/-- Window `w`'s current staging memref at point `t`, as the pipeline passes it, and its wholeness. -/
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x2048 .f32 := win0_7.stage (cfg0.slots t 7)
abbrev hs7 (t : Fin cfg0.N) : (ms7 t).IsWhole := hstage0_7 ((cfg0.slots t 7).cast nbuf0_7)
/-- The scratch that holds the normalised rows from the first hidden tile to the last. -/
abbrev scM : Memref sig .tc .vmem S512x2048 .bf16 := Memref.whole cc0_scratch0

/-- The class invariant with the one scratch buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.RunFirst.lean ====
/-
  The body at a point of the FIRST hidden tile, run once on any whole staging memrefs.

  Handed the seven input blocks at their contents and the output block's buffer and the scratch at anything, the body
  normalises the rows into the scratch, reads the scratch back, and stores the first partial product over the whole output
  block.  It ends with the inputs as they were and the two written buffers at what their stores left; the stores' pieces are
  the witness, found as the run hands each buffer to the continuation.
-/
import proofs.«180789_j79671643341681_2_alg».proof.Proof.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the first hidden tile's stores leave in the output block's buffer and in the scratch, with the proof that the
    body runs to a continuation holding them. -/
noncomputable def runFirst (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
    (h1 : isFirstLN i) (h2 : isFirst i) (h3 : ¬isLater i) (h4 : ¬isLast i) (x0 : Vec F S512x2048 .f32) (x1 x2 : Vec F S1x2048 .f32) (x3 : Vec F S2048x512 .bf16) (x4 : Vec F S1x512 .f32) (x5 : Vec F S512x2048 .bf16) (x6 : Vec F S1x2048 .f32) :
    Σ' (LO : List (View.Piece (Elt F) S512x2048 .f32)), { LS : List (View.Piece (Elt F) S512x2048 .bf16) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ (∃ f, arg10.view.loc (c : Thread nD τ) ↦[arg10.view.set]{fullShare} arg10.view.writes (Elt F) f LS)) -∗ K ⟨⟩))
          ⊢ wp frame (wpE (defs₀ (F := F)) Variants.none c none) Set.univ (cc0__kernel i arg2 harg2 arg3 harg3 arg4 harg4 arg5 harg5 arg6 harg6 arg7 harg7 arg8 harg8 arg9 harg9 arg10 harg10) K } := by
  refine ⟨?_, ?_, fun K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Body

end
-- ==== Proof.RunMiddle.lean ====
/-
  The body at a point of a MIDDLE hidden tile (neither the first nor the last), run once on any whole staging memrefs.

  Handed the seven input blocks, the output block's buffer at what the point before left and the scratch at the normalised
  rows, the body reads the scratch, forms the partial product of this hidden tile, adds it to what the buffer holds and stores
  the total over the whole block.  It ends with the inputs and the scratch as they were and the output buffer at what its one
  store left.
-/
import proofs.«180789_j79671643341681_2_alg».proof.Proof.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece a middle hidden tile's store leaves in the output block's buffer, with the proof that the body runs to a continuation holding it. -/
noncomputable def runMiddle (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
    (h1 : ¬isFirstLN i) (h2 : ¬isFirst i) (h3 : isLater i) (h4 : ¬isLast i) (x0 : Vec F S512x2048 .f32) (x1 x2 : Vec F S1x2048 .f32) (x3 : Vec F S2048x512 .bf16) (x4 : Vec F S1x512 .f32) (x5 : Vec F S512x2048 .bf16) (x6 : Vec F S1x2048 .f32)
    (xo : Vec F S512x2048 .f32) (xs : Vec F S512x2048 .bf16) :
    { LO : List (View.Piece (Elt F) S512x2048 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ owns (c : Thread nD τ) arg10 fullShare xs) -∗ K ⟨⟩))
          ⊢ wp frame (wpE (defs₀ (F := F)) Variants.none c none) Set.univ (cc0__kernel i arg2 harg2 arg3 harg3 arg4 harg4 arg5 harg5 arg6 harg6 arg7 harg7 arg8 harg8 arg9 harg9 arg10 harg10) K } := by
  refine ⟨?_, fun K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS

end Cert.KernelIdeal.Body

end
-- ==== Proof.RunLast.lean ====
/-
  The body at a point of the LAST hidden tile, run once on any whole staging memrefs.

  As at a middle tile the body adds this tile's partial product to what the output buffer holds and stores the total; it then
  reads the total back, adds the second layer's bias to every row, and stores the block again.  It ends with the inputs and the
  scratch as they were and the output buffer at what its two stores left, the later over the earlier.
-/
import proofs.«180789_j79671643341681_2_alg».proof.Proof.RunMiddle

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the last hidden tile's two stores leave in the output block's buffer (the later first), with the proof that the body runs to a continuation holding them. -/
noncomputable def runLast (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
    (h1 : ¬isFirstLN i) (h2 : ¬isFirst i) (h3 : isLater i) (h4 : isLast i) (x0 : Vec F S512x2048 .f32) (x1 x2 : Vec F S1x2048 .f32) (x3 : Vec F S2048x512 .bf16) (x4 : Vec F S1x512 .f32) (x5 : Vec F S512x2048 .bf16) (x6 : Vec F S1x2048 .f32)
    (xo : Vec F S512x2048 .f32) (xs : Vec F S512x2048 .bf16) :
    { LO : List (View.Piece (Elt F) S512x2048 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ owns (c : Thread nD τ) arg10 fullShare xs) -∗ K ⟨⟩))
          ⊢ wp frame (wpE (defs₀ (F := F)) Variants.none c none) Set.univ (cc0__kernel i arg2 harg2 arg3 harg3 arg4 harg4 arg5 harg5 arg6 harg6 arg7 harg7 arg8 harg8 arg9 harg9 arg10 harg10) K } := by
  refine ⟨?_, fun K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS

end Cert.KernelIdeal.Body

end
-- ==== Proof.Pieces.lean ====
/-
  What each run's stores leave, read back: the kernel's named terms of the values the body was handed.

  Every store of this kernel covers its whole buffer through the rectangle at zero offsets, so what a buffer reads after a
  run's stores is the payload of the last of them, whatever it held before.  A payload that mentions a load made after a store
  (the scratch read back after it was filled; the running total read back before the bias is added) reads that store's payload
  in turn.  Stated once per run and buffer, over any memrefs, for any prior contents `f`.
-/
import proofs.«180789_j79671643341681_2_alg».proof.Proof.RunLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets every access of this kernel uses are zero. -/
theorem zeroOff : (![0, 0] : Fin 2 → Nat) = fun _ => 0 := by
  funext a; match a with | ⟨0, _⟩ => rfl | ⟨1, _⟩ => rfl

section First
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)
  (h1 : isFirstLN i) (h2 : isFirst i) (h3 : ¬isLater i) (h4 : ¬isLast i) (x0 : Vec F S512x2048 .f32) (x1 x2 : Vec F S1x2048 .f32) (x3 : Vec F S2048x512 .bf16) (x4 : Vec F S1x512 .f32) (x5 : Vec F S512x2048 .bf16) (x6 : Vec F S1x2048 .f32)

/-- At a first hidden tile the scratch ends at the normalised rows. -/
theorem first_scratch (f : arg10.view.ty.Contents (Elt F)) :
    arg10.view.read (Elt F) (arg10.view.writes (Elt F) f (runFirst c i arg2 harg2 arg3 harg3 arg4 harg4 arg5 harg5 arg6 harg6 arg7 harg7 arg8 harg8 arg9 harg9 arg10 harg10 h1 h2 h3 h4 x0 x1 x2 x3 x4 x5 x6).2.1)
      = k0_pay2 x0 x1 x2 := by
  rw [View.read_writes_eq_canon _ _ _ (fun y => View.cover_of_tiledL _ S512x2048.size (by sl_kernel_rfl) y)]
  unfold runFirst; dsimp only; sl_unfold_words
  rw [View.canon_unit_zero zeroOff]
  simp only [View.readAt_eq_ld, harg2.read_unread, harg3.read_unread, harg4.read_unread,
    View.ld_unit_zero (S := S512x2048) zeroOff, View.ld_unit_zero (S := S1x2048) zeroOff]
  try rfl

/-- At a first hidden tile the output buffer ends at the first partial product, formed from the normalised rows. -/
theorem first_out (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 h1 h2 h3 h4 x0 x1 x2 x3 x4 x5 x6).1)
      = k0_pay3 (k0_pay2 x0 x1 x2) x3 x4 x5 := by
  rw [View.read_writes_eq_canon _ _ _ (fun y => View.cover_of_tiledL _ S512x2048.size (by sl_kernel_rfl) y)]
  unfold runFirst; dsimp only; sl_unfold_words
  rw [View.canon_unit_zero zeroOff, View.readCov_unit_zero (S := S512x2048) _ zeroOff]
  simp only [View.readAt_eq_ld, harg2.read_unread, harg3.read_unread, harg4.read_unread,
    harg5.read_unread, harg6.read_unread, harg7.read_unread,
    View.ld_unit_zero (S := S512x2048) zeroOff, View.ld_unit_zero (S := S1x2048) zeroOff,
    View.ld_unit_zero (S := S2048x512) zeroOff, View.ld_unit_zero (S := S1x512) zeroOff]

end First

section Later
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole) (x0 : Vec F S512x2048 .f32) (x1 x2 : Vec F S1x2048 .f32) (x3 : Vec F S2048x512 .bf16) (x4 : Vec F S1x512 .f32) (x5 : Vec F S512x2048 .bf16) (x6 : Vec F S1x2048 .f32)
  (xo : Vec F S512x2048 .f32) (xs : Vec F S512x2048 .bf16)

/-- At a middle hidden tile the output buffer ends at what it held plus this tile's partial product. -/
theorem middle_out (h1 : ¬isFirstLN i) (h2 : ¬isFirst i) (h3 : isLater i) (h4 : ¬isLast i) (f : arg9.view.ty.Contents (Elt F)) :
    arg9.view.read (Elt F) (arg9.view.writes (Elt F) f (runMiddle c i arg2 harg2 arg3 harg3 arg4 harg4 arg5 harg5 arg6 harg6 arg7 harg7 arg8 harg8 arg9 harg9 arg10 harg10 h1 h2 h3 h4 x0 x1 x2 x3 x4 x5 x6 xo xs).1)
      = k0_pay4 xs x3 x4 x5 xo := by
  rw [View.read_writes_eq_canon _ _ _ (fun y => View.cover_of_tiledL _ S512x2048.size (by sl_kernel_rfl) y)]
  unfold runMiddle; dsimp only; sl_unfold_words
  rw [View.canon_unit_zero zeroOff]
  simp only [View.readAt_eq_ld, harg5.read_unread, harg6.read_unread, harg7.read_unread, harg9.read_unread, harg10.read_unread,
    View.ld_unit_zero (S := S512x2048) zeroOff, View.ld_unit_zero (S := S2048x512) zeroOff, View.ld_unit_zero (S := S1x512) zeroOff]
  try rfl

/-- At the last hidden tile the output buffer ends at that total plus the second bias. -/
theorem last_out (h1 : ¬isFirstLN i) (h2 : ¬isFirst i) (h3 : isLater i) (h4 : isLast i) (f : arg9.view.ty.Contents (Elt F)) :
    arg9.view.read (Elt F) (arg9.view.writes (Elt F) f (runLast c i arg2 harg2 arg3 harg3 arg4 harg4 arg5 harg5 arg6 harg6 arg7 harg7 arg8 harg8 arg9 harg9 arg10 harg10 h1 h2 h3 h4 x0 x1 x2 x3 x4 x5 x6 xo xs).1)
      = k0_pay1 (k0_pay4 xs x3 x4 x5 xo) x6 := by
  rw [View.read_writes_eq_canon _ _ _ (fun y => View.cover_of_tiledL _ S512x2048.size (by sl_kernel_rfl) y)]
  unfold runLast; dsimp only; sl_unfold_words
  rw [View.canon_cons_unit_zero zeroOff, View.readCov_unit_zero (S := S512x2048) _ zeroOff]
  simp only [View.readAt_eq_ld, harg5.read_unread, harg6.read_unread, harg7.read_unread,
    harg8.read_unread, harg9.read_unread, harg10.read_unread,
    View.ld_unit_zero (S := S512x2048) zeroOff, View.ld_unit_zero (S := S1x2048) zeroOff,
    View.ld_unit_zero (S := S2048x512) zeroOff, View.ld_unit_zero (S := S1x512) zeroOff]

end Later

end Cert.KernelIdeal.Body

end
-- ==== Proof.Held.lean ====
/-
  What the kernel holds from point to point, and the proof data of its one pipeline.

  Two buffers carry values between points.  The scratch holds the normalised rows of the current row tile: written at the
  tile's first hidden tile, read at all sixteen.  The output block's buffer holds the running total of the partial products:
  the first hidden tile stores its partial product, each later one adds its own, the last adds the second bias on top; the
  pipeline writes the block back after the last.  Both are stated here in the kernel's own named terms of the blocks at
  each point, by recursion on the point; the three runs are then shown to leave exactly these.
-/
import proofs.«180789_j79671643341681_2_alg».proof.Proof.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window 0's block at point `t` (the rows), at its literal type. -/
def blk0 (c : Dev nD) (t : Fin cfg0.N) : Vec F S512x2048 .f32 := iblk m c 0 t
/-- Window 1's block at point `t` (the scale), at its literal type. -/
def blk1 (c : Dev nD) (t : Fin cfg0.N) : Vec F S1x2048 .f32 := iblk m c 1 t
/-- Window 2's block at point `t` (the shift), at its literal type. -/
def blk2 (c : Dev nD) (t : Fin cfg0.N) : Vec F S1x2048 .f32 := iblk m c 2 t
/-- Window 3's block at point `t` (the first layer's weights), at its literal type. -/
def blk3 (c : Dev nD) (t : Fin cfg0.N) : Vec F S2048x512 .bf16 := iblk m c 3 t
/-- Window 4's block at point `t` (the first layer's biases), at its literal type. -/
def blk4 (c : Dev nD) (t : Fin cfg0.N) : Vec F S1x512 .f32 := iblk m c 4 t
/-- Window 5's block at point `t` (the second layer's weights), at its literal type. -/
def blk5 (c : Dev nD) (t : Fin cfg0.N) : Vec F S512x2048 .bf16 := iblk m c 5 t
/-- Window 6's block at point `t` (the second layer's biases), at its literal type. -/
def blk6 (c : Dev nD) (t : Fin cfg0.N) : Vec F S1x2048 .f32 := iblk m c 6 t

/-- The normalised rows, as the body at a first hidden tile computes them from its blocks. -/
def lnAt (c : Dev nD) (t : Fin cfg0.N) : Vec F S512x2048 .bf16 := k0_pay2 (blk0 m c t) (blk1 m c t) (blk2 m c t)

/-! ## What the output buffer and the scratch hold after each point -/

/-- After the body at position `n`: the output block's buffer, then the scratch.  At a first hidden tile the first partial
    product and the freshly normalised rows; at a later one the total so far plus this tile's partial product (plus the second
    bias at the last), the scratch as the point before left it. -/
def heldAt (c : Dev nD) : (n : ℕ) → n < cfg0.N → Vec F S512x2048 .f32 × Vec F S512x2048 .bf16
  | 0, hn => (k0_pay3 (lnAt m c ⟨0, hn⟩) (blk3 m c ⟨0, hn⟩) (blk4 m c ⟨0, hn⟩) (blk5 m c ⟨0, hn⟩), lnAt m c ⟨0, hn⟩)
  | n + 1, hn =>
    if (n + 1) % 16 = 0 then
      (k0_pay3 (lnAt m c ⟨n + 1, hn⟩) (blk3 m c ⟨n + 1, hn⟩) (blk4 m c ⟨n + 1, hn⟩) (blk5 m c ⟨n + 1, hn⟩), lnAt m c ⟨n + 1, hn⟩)
    else if (n + 1) % 16 = 15 then
      (k0_pay1 (k0_pay4 (heldAt c n (Nat.lt_of_succ_lt hn)).2 (blk3 m c ⟨n + 1, hn⟩) (blk4 m c ⟨n + 1, hn⟩) (blk5 m c ⟨n + 1, hn⟩) (heldAt c n (Nat.lt_of_succ_lt hn)).1) (blk6 m c ⟨n + 1, hn⟩),
        (heldAt c n (Nat.lt_of_succ_lt hn)).2)
    else
      (k0_pay4 (heldAt c n (Nat.lt_of_succ_lt hn)).2 (blk3 m c ⟨n + 1, hn⟩) (blk4 m c ⟨n + 1, hn⟩) (blk5 m c ⟨n + 1, hn⟩) (heldAt c n (Nat.lt_of_succ_lt hn)).1,
        (heldAt c n (Nat.lt_of_succ_lt hn)).2)

/-- The point before `t`, as a position. -/
abbrev predLt (t : Fin cfg0.N) : t.val - 1 < cfg0.N := Nat.lt_of_le_of_lt (Nat.sub_le _ _) t.isLt

theorem heldAt_first (c : Dev nD) (t : Fin cfg0.N) (h : t.val % 16 = 0) :
    heldAt m c t.val t.isLt = (k0_pay3 (lnAt m c t) (blk3 m c t) (blk4 m c t) (blk5 m c t), lnAt m c t) := by
  obtain ⟨n, hn⟩ := t
  cases n with
  | zero => rfl
  | succ n => exact (if_pos h).trans rfl

theorem heldAt_middle (c : Dev nD) (t : Fin cfg0.N) (h0 : ¬t.val % 16 = 0) (h15 : ¬t.val % 16 = 15) :
    heldAt m c t.val t.isLt
      = (k0_pay4 (heldAt m c (t.val - 1) (predLt t)).2 (blk3 m c t) (blk4 m c t) (blk5 m c t) (heldAt m c (t.val - 1) (predLt t)).1,
          (heldAt m c (t.val - 1) (predLt t)).2) := by
  obtain ⟨n, hn⟩ := t
  cases n with
  | zero => exact absurd (Nat.zero_mod _) h0
  | succ n => exact (if_neg h0).trans ((if_neg h15).trans rfl)

theorem heldAt_last (c : Dev nD) (t : Fin cfg0.N) (h15 : t.val % 16 = 15) :
    heldAt m c t.val t.isLt
      = (k0_pay1 (k0_pay4 (heldAt m c (t.val - 1) (predLt t)).2 (blk3 m c t) (blk4 m c t) (blk5 m c t) (heldAt m c (t.val - 1) (predLt t)).1) (blk6 m c t),
          (heldAt m c (t.val - 1) (predLt t)).2) := by
  obtain ⟨n, hn⟩ := t
  cases n with
  | zero => exact absurd (show 0 % 16 = 15 from h15) (by omega)
  | succ n =>
    have h15' : (n + 1) % 16 = 15 := h15
    exact (if_neg (by omega)).trans ((if_pos h15').trans rfl)

/-! ## The invariant: the scratch at what the point before left -/

/-- Before position `n`: before the first point the scratch holds anything; afterwards what the point before left in it. -/
def PhiS (c : Dev nD) : (n : ℕ) → n ≤ cfg0.N → sProp 𝕄
  | 0, _ => Pipeline.ΦA spec0 c
  | n + 1, hn => iprop(iprop(owns (c : Thread nD τ) scM fullShare ((heldAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((heldAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((heldAt m c (n - 1) (by omega)).2)) ∗ (∃ r, prngReg c r)) := by
  cases n with
  | zero => exact absurd rfl hz
  | succ n => rfl

/-! ## The proof data -/

/-- The arrays as the region finds them; after the body each input's buffer at its block and the output's at the running
    total; the invariant the scratch's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (heldAt m c t.val t.isLt).1
    | ⟨n + 8, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (heldAt m c t.val t.isLt).1 := by dsimp only [dats]

theorem before0 (c : Dev nD) (t : Fin cfg0.N) (d) : (dats m 0 c).before 0 t d = blk0 m c t :=
  before0_0_of m (dats m 0 c) (A_eq m c 0) (after0 m c) t d
theorem before1 (c : Dev nD) (t : Fin cfg0.N) (d) : (dats m 0 c).before 1 t d = blk1 m c t :=
  before0_1_of m (dats m 0 c) (A_eq m c 1) (after1 m c) t d
theorem before2 (c : Dev nD) (t : Fin cfg0.N) (d) : (dats m 0 c).before 2 t d = blk2 m c t :=
  before0_2_of m (dats m 0 c) (A_eq m c 2) (after2 m c) t d
theorem before3 (c : Dev nD) (t : Fin cfg0.N) (d) : (dats m 0 c).before 3 t d = blk3 m c t :=
  before0_3_of m (dats m 0 c) (A_eq m c 3) (after3 m c) t d
theorem before4 (c : Dev nD) (t : Fin cfg0.N) (d) : (dats m 0 c).before 4 t d = blk4 m c t :=
  before0_4_of m (dats m 0 c) (A_eq m c 4) (after4 m c) t d
theorem before5 (c : Dev nD) (t : Fin cfg0.N) (d) : (dats m 0 c).before 5 t d = blk5 m c t :=
  before0_5_of m (dats m 0 c) (A_eq m c 5) (after5 m c) t d
theorem before6 (c : Dev nD) (t : Fin cfg0.N) (d) : (dats m 0 c).before 6 t d = blk6 m c t :=
  before0_6_of m (dats m 0 c) (A_eq m c 6) (after6 m c) t d

/-- The output block is stored into at every hidden tile, whatever the row tile: at the first by the second branch, at the
    others by the third.  The three conditions read the hidden-tile coordinate only, so sixteen cases decide it. -/
theorem live7 (i : grid0.Coords) : cfg0.idle 7 i = false :=
  (by decide +kernel : ∀ k : Fin 16,
      (!(Scalar.cmpi .ne (Scalar.extui (Scalar.cmpi .eq (BitVec.ofNat 32 k.val) (0#32))) (0#32) == 1#1)
        && !(Scalar.cmpi .ne (Scalar.extui (Scalar.cmpi .ne (BitVec.ofNat 32 k.val) (0#32))) (0#32) == 1#1)
        && !(Scalar.cmpi .ne (Scalar.extui (Scalar.cmpi .eq (BitVec.ofNat 32 k.val) (15#32))) (0#32) == 1#1)) = false) (i 1)

/-- At a later hidden tile the output block's buffer holds what the point before left: it is not written back between. -/
theorem before7_later (c : Dev nD) (t : Fin cfg0.N) (h0 : ¬t.val % 16 = 0) (d) :
    (dats m 0 c).before 7 t d = (heldAt m c (t.val - 1) (predLt t)).1 := by
  have ht : t.val ≠ 0 := fun h => h0 (by rw [h])
  have hN : t.val < 256 := lt_of_lt_of_eq t.isLt (show cfg0.N = 256 from N_0)
  rw [(dats m 0 c).before_out_kept 7 rfl t ht
    (by
      cases hfl : (cfg0.win 7).flush ⟨t.val - 1, predLt t⟩ with
      | false => rfl
      | true => exact absurd ((flush0_7 ⟨t.val - 1, predLt t⟩).mp hfl) (by dsimp only; omega))
    (fun i => live7 i) (fun _ _ => rfl) d, after7]

end Cert.KernelIdeal.Body

end
-- ==== Proof.Obligation.lean ====
/-
  The body's triple at every grid point, the launch, and the frame.

  At a point the pipeline hands the body the eight windows' current buffers (each input at its block, the output's at what the
  point before left unless a new row tile begins) and the invariant (the scratch at what the point before left).  Which of the
  three runs applies is decided by the hidden tile, `t mod 16`; each run's stores, read back, are the terms the proof data
  names.  The launch theorem then gives the run of the whole program, and from it the arguments are unchanged.
-/
import proofs.«180789_j79671643341681_2_alg».proof.Proof.Pieces
import proofs.«180789_j79671643341681_2_alg».proof.Proof.Held

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- No window is idle, so each buffer is left at exactly what the proof data names. -/
theorem leaves0 (c : Dev nD) (t : Fin cfg0.N) :
    (dats m 0 c).leavesExact 0 t = owns (c : Thread nD τ) (ms0 t) fullShare ((dats m 0 c).after 0 t) := by
  unfold Dat.leavesExact; rw [live 0 t]
theorem leaves1 (c : Dev nD) (t : Fin cfg0.N) :
    (dats m 0 c).leavesExact 1 t = owns (c : Thread nD τ) (ms1 t) fullShare ((dats m 0 c).after 1 t) := by
  unfold Dat.leavesExact; rw [live 1 t]
theorem leaves2 (c : Dev nD) (t : Fin cfg0.N) :
    (dats m 0 c).leavesExact 2 t = owns (c : Thread nD τ) (ms2 t) fullShare ((dats m 0 c).after 2 t) := by
  unfold Dat.leavesExact; rw [live 2 t]
theorem leaves3 (c : Dev nD) (t : Fin cfg0.N) :
    (dats m 0 c).leavesExact 3 t = owns (c : Thread nD τ) (ms3 t) fullShare ((dats m 0 c).after 3 t) := by
  unfold Dat.leavesExact; rw [live 3 t]
theorem leaves4 (c : Dev nD) (t : Fin cfg0.N) :
    (dats m 0 c).leavesExact 4 t = owns (c : Thread nD τ) (ms4 t) fullShare ((dats m 0 c).after 4 t) := by
  unfold Dat.leavesExact; rw [live 4 t]
theorem leaves5 (c : Dev nD) (t : Fin cfg0.N) :
    (dats m 0 c).leavesExact 5 t = owns (c : Thread nD τ) (ms5 t) fullShare ((dats m 0 c).after 5 t) := by
  unfold Dat.leavesExact; rw [live 5 t]
theorem leaves6 (c : Dev nD) (t : Fin cfg0.N) :
    (dats m 0 c).leavesExact 6 t = owns (c : Thread nD τ) (ms6 t) fullShare ((dats m 0 c).after 6 t) := by
  unfold Dat.leavesExact; rw [live 6 t]
theorem leaves7 (c : Dev nD) (t : Fin cfg0.N) :
    (dats m 0 c).leavesExact 7 t = owns (c : Thread nD τ) (ms7 t) fullShare ((dats m 0 c).after 7 t) := by
  unfold Dat.leavesExact; rw [live 7 t]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t, leaves6 m c t, leaves7 m c t,
    after0, after1, after2, after3, after4, after5, after6, after7]
  rw [show iblk m c 0 t = blk0 m c t from rfl, show iblk m c 1 t = blk1 m c t from rfl, show iblk m c 2 t = blk2 m c t from rfl,
    show iblk m c 3 t = blk3 m c t from rfl, show iblk m c 4 t = blk4 m c t from rfl, show iblk m c 5 t = blk5 m c t from rfl,
    show iblk m c 6 t = blk6 m c t from rfl]
  have hN : t.val < 256 := lt_of_lt_of_eq t.isLt (show cfg0.N = 256 from N_0)
  by_cases h0 : t.val % 16 = 0
  · rw [heldAt_first m c t h0]; dsimp only [lnAt]
    by_cases hz : t.val = 0
    · rw [Phi_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hg]
      · isplitl [HS]
        · unfold owns; iexists _; isplitr
          swap; · iexact HS
          ipureintro; exact first_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact first_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
    · rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t)).2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexists _; iexact HS
      iintro ⟨H0, H1, H2, H3, H4, H5, H6, ⟨%e7, H7⟩, ⟨%es, HS⟩⟩
      isplitl [HS Hg]
      · isplitl [HS]
        · unfold owns; iexists _; isplitr
          swap; · iexact HS
          ipureintro; exact first_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact first_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirstLN_iff t).mpr h0) ((isFirst_iff t).mpr h0) (fun h => ((isLater_iff t).mp h) h0) (fun h => by have := (isLast_iff t).mp h; omega) (blk0 m c t) (blk1 m c t) (blk2 m c t) (blk3 m c t) (blk4 m c t) (blk5 m c t) (blk6 m c t) _
  · have hz : t.val ≠ 0 := fun h => h0 (by rw [h])
    simp only [before7_later m c t h0]
    by_cases h15 : t.val % 16 = 15
    · rw [heldAt_last m c t h15]; dsimp only
      rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirstLN_iff t).mp h)) (fun h => h0 ((isFirst_iff t).mp h)) ((isLater_iff t).mpr h0) ((isLast_iff t).mpr h15) (blk0 m c t) (blk1 m c t) (blk2 m c t) (blk3 m c t) (blk4 m c t) (blk5 m c t) (blk6 m c t) (heldAt m c (t.val - 1) (predLt t)).1 (heldAt m c (t.val - 1) (predLt t)).2).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, ⟨%e7, H7⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact last_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (blk0 m c t) (blk1 m c t) (blk2 m c t) (blk3 m c t) (blk4 m c t) (blk5 m c t) (blk6 m c t) (heldAt m c (t.val - 1) (predLt t)).1 (heldAt m c (t.val - 1) (predLt t)).2 (fun h => h0 ((isFirstLN_iff t).mp h)) (fun h => h0 ((isFirst_iff t).mp h)) ((isLater_iff t).mpr h0) ((isLast_iff t).mpr h15) _
    · rw [heldAt_middle m c t h0 h15]; dsimp only
      rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirstLN_iff t).mp h)) (fun h => h0 ((isFirst_iff t).mp h)) ((isLater_iff t).mpr h0) (fun h => h15 ((isLast_iff t).mp h)) (blk0 m c t) (blk1 m c t) (blk2 m c t) (blk3 m c t) (blk4 m c t) (blk5 m c t) (blk6 m c t) (heldAt m c (t.val - 1) (predLt t)).1 (heldAt m c (t.val - 1) (predLt t)).2).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, ⟨%e7, H7⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact middle_out c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (blk0 m c t) (blk1 m c t) (blk2 m c t) (blk3 m c t) (blk4 m c t) (blk5 m c t) (blk6 m c t) (heldAt m c (t.val - 1) (predLt t)).1 (heldAt m c (t.val - 1) (predLt t)).2 (fun h => h0 ((isFirstLN_iff t).mp h)) (fun h => h0 ((isFirst_iff t).mp h)) ((isLater_iff t).mpr h0) (fun h => h15 ((isLast_iff t).mp h)) _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's named contents are forgotten. -/
theorem hout (c : Dev nD) : (dats m 0 c).Φ (Fin.last cfg0.N) ⊢ Pipeline.ΦA spec0 c := by
  have hl : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨HS, Hg⟩
  isplitl [HS]
  · iexists _; iexact HS
  iexact Hg

set_option backward.isDefEq.respectTransparency.types false in
/-- Every weakly fair execution of the program terminates, faults nowhere, and ends with every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and leaves its seven arguments as they were, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Spec.lean ====
/-
  The mathematics both programs compute, stated once over the extended reals, row by row.

  Each of the 8192 rows is treated independently.  A row `x` of 2048 entries is normalised
  (layer normalisation with scale `g` and shift `b`: the row less its mean, times the reciprocal square
  root of its variance plus a small constant), sent through a dense layer of 8192 hidden units
  (weights `W1`, biases `b1`), through the tanh form of the GELU nonlinearity, and through a second dense
  layer back to 2048 entries (weights `W2`, biases `b2`).  The float literals are kept as the words the two
  programs share: the same word on both sides is never evaluated.
-/
import Idealize.ShloMosaic.PureOps.Ideal
import Idealize.ShloMosaic.PureOps.Ideal.Laws
import Idealize.ShloMosaic.Lib.ValueIdx

noncomputable section

namespace Cert.Mlp

open Idealize.ShloMosaic

/-- The row length 2048 as the programs write it. -/
abbrev nW : EReal := Ideal.ofBits .f32 0x45000000#32
/-- The constant added to the variance. -/
abbrev epsW : EReal := Ideal.ofBits .f32 0x3A83126F#32
/-- The cubic coefficient of the GELU's tanh form. -/
abbrev cubW : EReal := Ideal.ofBits .f32 0x3D372713#32
/-- The scale inside the tanh. -/
abbrev sclW : EReal := Ideal.ofBits .f32 0x3F4C422A#32
/-- One and one half. -/
abbrev oneW : EReal := Ideal.ofBits .f32 0x3F800000#32
abbrev halfW : EReal := Ideal.ofBits .f32 0x3F000000#32

/-- The mean of a row. -/
def rowMean (x : Fin 2048 → EReal) : EReal := Ideal.div (∑ d : Fin 2048, x d) nW

/-- The variance of a row about its mean. -/
def rowVar (x : Fin 2048 → EReal) : EReal :=
  Ideal.div (∑ d : Fin 2048, (x d - rowMean x) * (x d - rowMean x)) nW

/-- The normalised row, scaled by `g` and shifted by `b`. -/
def rowLN (x g b : Fin 2048 → EReal) (d : Fin 2048) : EReal :=
  (x d - rowMean x) * Ideal.rsqrt (rowVar x + epsW) * g d + b d

/-- One hidden unit: the normalised row against the unit's weight column, plus the unit's bias. -/
def hidden (y w : Fin 2048 → EReal) (bias : EReal) : EReal := (∑ d : Fin 2048, y d * w d) + bias

/-- The tanh form of GELU. -/
def gelu (h : EReal) : EReal :=
  h * (halfW * (oneW + Ideal.tanh (sclW * (h + cubW * (h * (h * h))))))

/-- The activation of hidden unit `j` on row `x`. -/
def act (x g b : Fin 2048 → EReal) (W1 : Fin 2048 → Fin 8192 → EReal) (b1 : Fin 8192 → EReal) (j : Fin 8192) : EReal :=
  gelu (hidden (rowLN x g b) (fun d => W1 d j) (b1 j))

/-- Entry `c` of the output row: the activations against column `c` of the second layer, plus its bias. -/
def outRow (x g b : Fin 2048 → EReal) (W1 : Fin 2048 → Fin 8192 → EReal) (b1 : Fin 8192 → EReal)
    (W2 : Fin 8192 → Fin 2048 → EReal) (b2 : Fin 2048 → EReal) (c : Fin 2048) : EReal :=
  (∑ j : Fin 8192, act x g b W1 b1 j * W2 j c) + b2 c

/-- The whole result, as a function of the seven argument arrays, index by index. -/
def result (x0 : (⟨2, ![8192, 2048]⟩ : Shape).Idx → EReal) (x1 x2 : (⟨1, ![2048]⟩ : Shape).Idx → EReal)
    (x3 : (⟨2, ![2048, 8192]⟩ : Shape).Idx → EReal) (x4 : (⟨1, ![8192]⟩ : Shape).Idx → EReal)
    (x5 : (⟨2, ![8192, 2048]⟩ : Shape).Idx → EReal) (x6 : (⟨1, ![2048]⟩ : Shape).Idx → EReal) :
    (⟨2, ![8192, 2048]⟩ : Shape).Idx → EReal := fun i =>
  outRow (fun d => x0 (ValueIdx.ix2 (i 0) d)) (fun d => x1 (ValueIdx.ix1 d)) (fun d => x2 (ValueIdx.ix1 d))
    (fun d j => x3 (ValueIdx.ix2 d j)) (fun j => x4 (ValueIdx.ix1 j)) (fun j c => x5 (ValueIdx.ix2 j c))
    (fun c => x6 (ValueIdx.ix1 c)) (i 1)

end Cert.Mlp

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.PayRows.lean ====
/-
  Three of the kernel's four stored values, read one entry at a time over the extended reals.

  A body of the kernel works on a block of 512 rows and one tile of 512 hidden units.  Besides the
  normalised rows (read in the sibling module on the normalised rows) it stores: the partial result of the tile
  (the normalised rows against the tile's first-layer weights, plus the tile's biases, through the tanh form
  of GELU, against the tile's second-layer weights); that partial result added to what the output block
  already holds; and the output block with the second layer's bias added.  Here each of the three is read at
  a row `p` and a column `c`, as the row-by-row formula of the specification: a product of matrices at an
  entry is a sum over the contracted coordinate, a broadcast row is read at its one row, and a cast of a
  shape to itself or a change of float format is the identity.
-/
import proofs.«180789_j79671643341681_2_alg».proof.Proof.Gen.KernelIdeal.Skeleton
import proofs.«180789_j79671643341681_2_alg».proof.Proof.Spec
import proofs.«180789_j79671643341681_2_alg».proof.Proof.LibRowColDot
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The output block plus a bias row, and plus a partial result -/

/-- The last store: entry `(p, c)` of the output block plus entry `c` of the second layer's bias row. -/
theorem pay1_apply (o : Vec Ideal S512x2048 .f32) (c2 : Vec Ideal S1x2048 .f32) (p : Fin 512) (c : Fin 2048) :
    k0_pay1 o c2 (ix2 p c) = o (ix2 p c) + c2 (ix2 (0 : Fin 1) c) := by
  unfold k0_pay1
  show shapeCast S512x2048 o _ (ix2 p c) + broadcastTo S512x2048 (shapeCast S1x2048 c2 _) _ (ix2 p c) = _
  rw [shapeCast_self, shapeCast_self]
  exact congrArg (o (ix2 p c) + ·) (broadcastTo_1b_ab_apply c2 _ p c)

/-- The accumulating store: entry `(p, c)` of the output block plus the same entry of the tile's partial result. -/
theorem pay4_apply (s : Vec Ideal S512x2048 .bf16) (w1 : Vec Ideal S2048x512 .bf16) (c1 : Vec Ideal S1x512 .f32)
    (w2 : Vec Ideal S512x2048 .bf16) (o : Vec Ideal S512x2048 .f32) (p : Fin 512) (c : Fin 2048) :
    k0_pay4 s w1 c1 w2 o (ix2 p c) = o (ix2 p c) + k0_pay3 s w1 c1 w2 (ix2 p c) := by
  unfold k0_pay4
  show shapeCast S512x2048 o _ (ix2 p c) + k0_pay3 s w1 c1 w2 (ix2 p c) = _
  rw [shapeCast_self]

/-! ## The two matrix products' operand indices

Both products contract the second axis of the left operand with the first axis of the right one, and keep the
left operand's rows and the right operand's columns. -/

/-- The left operand's row coordinate is the output's row. -/
theorem first_lhs0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
/-- The right operand's column coordinate is the output's column. -/
theorem first_rhs1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The left operand's row coordinate is the output's row. -/
theorem second_lhs0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl
/-- The right operand's column coordinate is the output's column. -/
theorem second_rhs1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-! ## One tile of hidden units -/

/-- The pre-activation of hidden unit `j` of the tile on row `p`: the row of the scratch against column `j` of the
    tile's first-layer weights, plus the unit's bias. -/
theorem preact_apply (s : FVec Ideal S512x2048 .bf16) (w1 : FVec Ideal S2048x512 .bf16) (c1 : FVec Ideal S1x512 .f32)
    (p j : Fin 512) :
    addf (matmul dot_S512x2048_S2048x512_S512x512_1_0_0_1_n_n none s (shapeCast S2048x512 w1 shapeCasts_S2048x512_S2048x512) (constant (F := Ideal) S512x512 .f32 0x00000000#32))
        (broadcastTo S512x512 (shapeCast S1x512 c1 shapeCasts_S1x512_S1x512) broadcasts_S1x512_S512x512) (ix2 p j)
      = Cert.Mlp.hidden (fun d => s (ix2 p d)) (fun d => w1 (ix2 d j)) (c1 (ix2 (0 : Fin 1) j)) := by
  rw [shapeCast_self, shapeCast_self]
  show matmul dot_S512x2048_S2048x512_S512x512_1_0_0_1_n_n none s w1 (constant (F := Ideal) S512x512 .f32 0x00000000#32) (ix2 p j)
      + broadcastTo S512x512 c1 broadcasts_S1x512_S512x512 (ix2 p j) = _
  rw [broadcastTo_1b_ab_apply c1 _ p j]
  exact congrArg (· + c1 (ix2 (0 : Fin 1) j))
    (Cert.RowColDot.matmul_rowcol dot_S512x2048_S2048x512_S512x512_1_0_0_1_n_n rfl rfl rfl rfl first_lhs0 first_rhs1 none s w1 (ix2 p j))

/-- The tile's partial result at `(p, c)`: the activations of the tile's 512 hidden units on row `p` against column `c`
    of the tile's second-layer weights. -/
theorem pay3_apply (s : Vec Ideal S512x2048 .bf16) (w1 : Vec Ideal S2048x512 .bf16) (c1 : Vec Ideal S1x512 .f32)
    (w2 : Vec Ideal S512x2048 .bf16) (p : Fin 512) (c : Fin 2048) :
    k0_pay3 s w1 c1 w2 (ix2 p c)
      = ∑ j : Fin 512, Cert.Mlp.gelu (Cert.Mlp.hidden (fun d => s (ix2 p d)) (fun d => w1 (ix2 d j)) (c1 (ix2 (0 : Fin 1) j)))
          * w2 (ix2 j c) := by
  unfold k0_pay3
  refine (Cert.RowColDot.matmul_rowcol dot_S512x512_S512x2048_S512x2048_1_0_0_1_n_n rfl rfl rfl rfl second_lhs0 second_rhs1 none _ _ (ix2 p c)).trans ?_
  refine Finset.sum_congr rfl fun j _ => ?_
  refine congrArg₂ (· * ·) ?_ (congrFun (shapeCast_self w2 _) (ix2 j c))
  exact congrArg Cert.Mlp.gelu (preact_apply s w1 c1 p j)

end Cert.KernelIdeal.PayValue

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.PayNorm.lean ====
/-
  The kernel's first stored value — the normalised rows — read one entry at a time over the extended reals.

  At the first tile of hidden units a body of the kernel normalises its block of 512 rows: each row less its
  mean, times the reciprocal square root of its variance plus a small constant, scaled by `g` and shifted by
  `b`.  The mean and the variance are row averages: the lane sum of a 512×2048 array, kept as a column, over
  the row length; the column is then broadcast back along the rows.  Read at a row `p`, a lane sum is a sum
  over `Fin 2048`, the column holds one value per row, and the broadcast column does not depend on the lane;
  so entry `(p, d)` of the stored block is entry `d` of row `p` normalised as the specification says.
-/
import proofs.«180789_j79671643341681_2_alg».proof.Proof.Gen.KernelIdeal.Skeleton
import proofs.«180789_j79671643341681_2_alg».proof.Proof.Spec
import proofs.«180789_j79671643341681_2_alg».proof.Proof.LibKeepdims
import proofs.«180789_j79671643341681_2_alg».proof.Proof.LibColumnBroadcast
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## Row averages

The kernel takes a row average twice — of the rows, and of their squared deviations from the row means — each time as
the lane sum of a 512×2048 array, kept as a column, over the row length. -/

/-- The column of row averages of a 512×2048 array: its lane sums, as a column, over the row length. -/
def avgCol (y : FVec Ideal S512x2048 .f32) : FVec Ideal S512x1 .f32 :=
  divf (shapeCast S512x1 (multiReduction .add [1] S512 y 0x00000000#32 reduces_S512x2048_S512 (.inl rfl) rfl) shapeCasts_S512_S512x1)
    (broadcast S512x1 (Scalar.ofBits .f32 0x45000000#32))

/-- The squared deviations of each entry from its row's average. -/
def sqDev (x : FVec Ideal S512x2048 .f32) : FVec Ideal S512x2048 .f32 :=
  mulf (subf x (broadcastTo S512x2048 (avgCol x) broadcasts_S512x1_S512x2048)) (subf x (broadcastTo S512x2048 (avgCol x) broadcasts_S512x1_S512x2048))

/-- The column of reciprocal square roots of the row variances plus the small constant. -/
def rstdCol (x : FVec Ideal S512x2048 .f32) : FVec Ideal S512x1 .f32 :=
  rsqrt (addf (avgCol (sqDev x)) (broadcast S512x1 (Scalar.ofBits .f32 0x3A83126F#32)))

/-- The average column at row `p` is the sum of row `p` over the row length. -/
theorem avgCol_apply (y : FVec Ideal S512x2048 .f32) (p : Fin 512) :
    avgCol y (ix2 p (0 : Fin 1)) = Ideal.div (∑ k : Fin 2048, y (ix2 p k)) Cert.Mlp.nW :=
  congrArg (Ideal.div · Cert.Mlp.nW)
    ((Cert.MemAttn.Layout.shapeCast_a_a1_apply _ shapeCasts_S512_S512x1 p 0).trans
      (Cert.MemAttn.Layout.multiReduction_add_row y _ reduces_S512x2048_S512 _ _ p))

/-- So the average column of the rows holds, at row `p`, that row's mean. -/
theorem mean_apply (x : FVec Ideal S512x2048 .f32) (p : Fin 512) :
    avgCol x (ix2 p (0 : Fin 1)) = Cert.Mlp.rowMean (fun e => x (ix2 p e)) :=
  avgCol_apply x p

/-- A squared deviation at `(p, k)`: the entry less its row's mean, squared. -/
theorem sqDev_apply (x : FVec Ideal S512x2048 .f32) (p : Fin 512) (k : Fin 2048) :
    sqDev x (ix2 p k) = (x (ix2 p k) - Cert.Mlp.rowMean (fun e => x (ix2 p e))) * (x (ix2 p k) - Cert.Mlp.rowMean (fun e => x (ix2 p e))) := by
  show (x (ix2 p k) - (broadcastTo S512x2048 (avgCol x) broadcasts_S512x1_S512x2048) (ix2 p k)) * (x (ix2 p k) - (broadcastTo S512x2048 (avgCol x) broadcasts_S512x1_S512x2048) (ix2 p k)) = _
  rw [Cert.WeightUpdate.Layout.broadcastTo_a1_ab_apply (avgCol x) _ p k, mean_apply x p]

/-- The average column of the squared deviations holds, at row `p`, that row's variance. -/
theorem var_apply (x : FVec Ideal S512x2048 .f32) (p : Fin 512) :
    avgCol (sqDev x) (ix2 p (0 : Fin 1)) = Cert.Mlp.rowVar (fun e => x (ix2 p e)) :=
  (avgCol_apply (sqDev x) p).trans
    (congrArg (Ideal.div · Cert.Mlp.nW) (Finset.sum_congr rfl fun k _ => sqDev_apply x p k))

/-- The reciprocal-root column at row `p`. -/
theorem rstd_apply (x : FVec Ideal S512x2048 .f32) (p : Fin 512) :
    rstdCol x (ix2 p (0 : Fin 1)) = Ideal.rsqrt (Cert.Mlp.rowVar (fun e => x (ix2 p e)) + Cert.Mlp.epsW) :=
  congrArg (fun t => Ideal.rsqrt (t + Cert.Mlp.epsW)) (var_apply x p)

/-- The first store: entry `(p, d)` of the scratch is entry `d` of row `p` normalised, scaled by `g` and shifted by `b`. -/
theorem pay2_apply (x : Vec Ideal S512x2048 .f32) (g b : Vec Ideal S1x2048 .f32) (p : Fin 512) (d : Fin 2048) :
    k0_pay2 x g b (ix2 p d)
      = Cert.Mlp.rowLN (fun e => x (ix2 p e)) (fun e => g (ix2 (0 : Fin 1) e)) (fun e => b (ix2 (0 : Fin 1) e)) d := by
  unfold k0_pay2
  refine (congrFun (shapeCast_self _ _) (ix2 p d)).trans ?_
  show (x (ix2 p d) - (broadcastTo S512x2048 (avgCol x) broadcasts_S512x1_S512x2048) (ix2 p d)) * (broadcastTo S512x2048 (rstdCol x) broadcasts_S512x1_S512x2048) (ix2 p d)
        * broadcastTo S512x2048 (shapeCast S1x2048 g shapeCasts_S1x2048_S1x2048) broadcasts_S1x2048_S512x2048 (ix2 p d)
      + broadcastTo S512x2048 (shapeCast S1x2048 b shapeCasts_S1x2048_S1x2048) broadcasts_S1x2048_S512x2048 (ix2 p d) = _
  rw [shapeCast_self, shapeCast_self, broadcastTo_1b_ab_apply g _ p d, broadcastTo_1b_ab_apply b _ p d,
    Cert.WeightUpdate.Layout.broadcastTo_a1_ab_apply (avgCol x) _ p d,
    Cert.WeightUpdate.Layout.broadcastTo_a1_ab_apply (rstdCol x) _ p d, mean_apply x p, rstd_apply x p]
  rfl

end Cert.KernelIdeal.PayValue

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.BlockSum.lean ====
/-
  The algebra that joins an accumulation over blocks to one sum.

  A sum over 8192 positions is the sum, over 16 consecutive blocks of 512, of the blocks' sums; and a total
  built up one partial result at a time is the sum of the partial results.  Both hold in any commutative
  additive monoid; the extended reals are one.
-/
import Mathlib.Algebra.BigOperators.Fin
import proofs.«180789_j79671643341681_2_alg».proof.Proof.LibUnitAxisSums

open scoped BigOperators

namespace Cert.Mlp

variable {M : Type*} [AddCommMonoid M]

/-- A sum over the 8192 hidden units, cut into 16 consecutive blocks of 512. -/
theorem sum_hidden_blocks (f : Fin 8192 → M) :
    ∑ j : Fin 8192, f j = ∑ k : Fin 16, ∑ j : Fin 512, f ⟨512 * k.val + j.val, by omega⟩ :=
  Idealize.ShloMosaic.ValueIdx.sum_fin_blocks 16 512 f

/-- The running total of the partial results `p 0, p 1, …`: it starts at `p 0`, and each further step adds
    the next partial result to what has been gathered so far. -/
def runningTotal (p : ℕ → M) : ℕ → M
  | 0 => p 0
  | k + 1 => runningTotal p k + p (k + 1)

theorem runningTotal_zero (p : ℕ → M) : runningTotal p 0 = p 0 := rfl

theorem runningTotal_succ (p : ℕ → M) (k : ℕ) : runningTotal p (k + 1) = runningTotal p k + p (k + 1) := rfl

/-- After step `n` the running total is the sum of the partial results `p 0, …, p n`. -/
theorem runningTotal_eq_sum_range (p : ℕ → M) (n : ℕ) :
    runningTotal p n = ∑ k ∈ Finset.range (n + 1), p k := by
  induction n with
  | zero => rw [runningTotal_zero, Finset.sum_range_one]
  | succ n ih => rw [runningTotal_succ, ih, Finset.sum_range_succ _ (n + 1)]

/-- After the sixteenth step (step 15) the running total is the sum of the sixteen partial results. -/
theorem runningTotal_fifteen (p : ℕ → M) : runningTotal p 15 = ∑ k : Fin 16, p k.val :=
  (runningTotal_eq_sum_range p 15).trans (Finset.sum_range p)

/-- The two together: when the `k`-th partial result is the sum of `f` over the `k`-th block of 512, the
    running total after step 15 is the sum of `f` over all 8192 positions. -/
theorem runningTotal_fifteen_eq_sum (f : Fin 8192 → M) (p : ℕ → M)
    (hp : ∀ k : Fin 16, p k.val = ∑ j : Fin 512, f ⟨512 * k.val + j.val, by omega⟩) :
    runningTotal p 15 = ∑ j : Fin 8192, f j := by
  rw [runningTotal_fifteen, sum_hidden_blocks]
  exact Finset.sum_congr rfl fun k _ => hp k

end Cert.Mlp
-- ==== Proof.Total.lean ====
/-
  What the two carried buffers hold after each point, in closed form.

  The 256 points run through 16 row tiles, and inside a row tile through the 16 tiles of hidden units.  The
  scratch is written at the first point of a row tile only, so at every point it holds the normalised rows of
  the row tile's first point.  The output block's buffer starts, at the first point of a row tile, from that
  point's partial product and gains one partial product at each later point: after the point with hidden tile
  `k` it holds the running total of the partial products `0, …, k` of the row tile, and at the last hidden tile
  the second layer's bias row on top.
-/
import proofs.«180789_j79671643341681_2_alg».proof.Proof.Held
import proofs.«180789_j79671643341681_2_alg».proof.Proof.PayRows
import proofs.«180789_j79671643341681_2_alg».proof.Proof.PayNorm
import proofs.«180789_j79671643341681_2_alg».proof.Proof.BlockSum

noncomputable section

namespace Cert.KernelIdeal.TotalValue

open Cert.KernelIdeal Cert.KernelIdeal.Gen Cert.KernelIdeal.Body Cert.KernelIdeal.PayValue
open Idealize.ShloMosaic Idealize.ShloMosaic.TcCoe Idealize.ShloMosaic.ValueIdx
open Idealize.SL Idealize.SL.Sem

/-! ## The scratch -/

section Scratch

variable {F : FTy → Type} [FloatOps F]
variable (m : (ℓ : Loc nD τ sig) → Buf (Elt F) ℓ)

/-- The first point of the row tile that position `n` lies in. -/
abbrev tileStart (n : ℕ) (hn : n < cfg0.N) : Fin cfg0.N := ⟨16 * (n / 16), lt_of_le_of_lt (Nat.mul_div_le n 16) hn⟩

/-- What is held after a position depends on the position only, not on how it is written. -/
theorem heldAt_congr (c : Dev nD) {n n' : ℕ} (h : n = n') (hn : n < cfg0.N) (hn' : n' < cfg0.N) :
    heldAt m c n hn = heldAt m c n' hn' := by
  subst h; rfl

/-- After every position the scratch holds the normalised rows of the first point of the position's row tile: a first
    hidden tile writes them, every later one keeps what the point before left. -/
theorem scratch_at (c : Dev nD) (n : ℕ) : ∀ hn : n < cfg0.N, (heldAt m c n hn).2 = lnAt m c (tileStart n hn) := by
  induction n with
  | zero =>
    intro hn
    refine (congrArg Prod.snd (heldAt_first m c ⟨0, hn⟩ rfl)).trans ?_
    exact congrArg (lnAt m c) (Fin.ext (by show 0 = 16 * (0 / 16); omega))
  | succ n ih =>
    intro hn
    by_cases h0 : (n + 1) % 16 = 0
    · refine (congrArg Prod.snd (heldAt_first m c ⟨n + 1, hn⟩ h0)).trans ?_
      exact congrArg (lnAt m c) (Fin.ext (by show n + 1 = 16 * ((n + 1) / 16); omega))
    · have hn' : n < cfg0.N := Nat.lt_of_succ_lt hn
      have hs : (heldAt m c (n + 1) hn).2 = (heldAt m c n hn').2 := by
        by_cases h15 : (n + 1) % 16 = 15
        · exact (congrArg Prod.snd (heldAt_last m c ⟨n + 1, hn⟩ h15)).trans rfl
        · exact (congrArg Prod.snd (heldAt_middle m c ⟨n + 1, hn⟩ h0 h15)).trans rfl
      refine hs.trans ((ih hn').trans ?_)
      exact congrArg (lnAt m c) (Fin.ext (by show 16 * (n / 16) = 16 * ((n + 1) / 16); omega))

/-- The scratch after point `t`: the normalised rows of the first point of `t`'s row tile. -/
theorem scratch_const (c : Dev nD) (t : Fin cfg0.N) :
    (heldAt m c t.val t.isLt).2 = lnAt m c ⟨16 * (t.val / 16), lt_of_le_of_lt (Nat.mul_div_le t.val 16) t.isLt⟩ :=
  scratch_at m c t.val t.isLt

end Scratch

/-! ## The output block's buffer -/

section Totals

variable (m : (ℓ : Loc nD τ sig) → Buf (Elt Ideal) ℓ)

/-- The partial product of the point at position `n`, at row `p` and column `q`: the normalised rows of the row tile's
    first point through the point's tile of hidden units (zero past the last point, where nothing is asked of it). -/
def partAt (c : Dev nD) (n : ℕ) (p : Fin 512) (q : Fin 2048) : EReal :=
  if h : n < cfg0.N then
    k0_pay3 (lnAt m c (tileStart n h)) (blk3 m c ⟨n, h⟩) (blk4 m c ⟨n, h⟩) (blk5 m c ⟨n, h⟩) (ix2 p q)
  else 0

theorem partAt_eq (c : Dev nD) (n : ℕ) (h : n < cfg0.N) (p : Fin 512) (q : Fin 2048) :
    partAt m c n p q
      = k0_pay3 (lnAt m c (tileStart n h)) (blk3 m c ⟨n, h⟩) (blk4 m c ⟨n, h⟩) (blk5 m c ⟨n, h⟩) (ix2 p q) :=
  dif_pos h

/-- One accumulating step inside a row tile that starts at position `b`: if the buffer holds the running total of the
    partial products `0, …, k`, adding the partial product of position `b + (k + 1)` — computed from the scratch —
    gives the running total of `0, …, k + 1`. -/
theorem step_total (c : Dev nD) (p : Fin 512) (q : Fin 2048) (b k : ℕ) (hb : b % 16 = 0) (hk : k + 1 < 16)
    (hn : b + (k + 1) < cfg0.N) (hn' : b + k < cfg0.N)
    (ih : (heldAt m c (b + k) hn').1 (ix2 p q) = Cert.Mlp.runningTotal (fun k' => partAt m c (b + k') p q) k) :
    k0_pay4 (heldAt m c (b + k) hn').2 (blk3 m c ⟨b + (k + 1), hn⟩) (blk4 m c ⟨b + (k + 1), hn⟩)
        (blk5 m c ⟨b + (k + 1), hn⟩) (heldAt m c (b + k) hn').1 (ix2 p q)
      = Cert.Mlp.runningTotal (fun k' => partAt m c (b + k') p q) (k + 1) := by
  refine (pay4_apply (heldAt m c (b + k) hn').2 (blk3 m c ⟨b + (k + 1), hn⟩) (blk4 m c ⟨b + (k + 1), hn⟩)
    (blk5 m c ⟨b + (k + 1), hn⟩) (heldAt m c (b + k) hn').1 p q).trans ?_
  refine (congrArg₂ (· + ·) ih ?_).trans (Cert.Mlp.runningTotal_succ (fun k' => partAt m c (b + k') p q) k).symm
  show _ = partAt m c (b + (k + 1)) p q
  refine Eq.trans ?_ (partAt_eq m c (b + (k + 1)) hn p q).symm
  refine congrArg (fun s => k0_pay3 s (blk3 m c ⟨b + (k + 1), hn⟩) (blk4 m c ⟨b + (k + 1), hn⟩)
    (blk5 m c ⟨b + (k + 1), hn⟩) (ix2 p q)) ?_
  refine (scratch_at m c (b + k) hn').trans ?_
  exact congrArg (lnAt m c) (Fin.ext (by show 16 * ((b + k) / 16) = 16 * ((b + (k + 1)) / 16); omega))

/-- Inside the row tile that starts at position `b`, before its last hidden tile: after the point with hidden tile `k` the
    buffer holds the running total of the row tile's partial products `0, …, k`. -/
theorem total_in_tile (c : Dev nD) (p : Fin 512) (q : Fin 2048) (b : ℕ) (hb : b % 16 = 0) (k : ℕ) :
    ∀ (_ : k < 15) (hn : b + k < cfg0.N),
      (heldAt m c (b + k) hn).1 (ix2 p q) = Cert.Mlp.runningTotal (fun k' => partAt m c (b + k') p q) k := by
  induction k with
  | zero =>
    intro _ hn
    refine (congrFun (congrArg Prod.fst (heldAt_first m c ⟨b, hn⟩ hb)) (ix2 p q)).trans ?_
    refine Eq.trans ?_ (partAt_eq m c b hn p q).symm
    exact congrArg (fun s => k0_pay3 s (blk3 m c ⟨b, hn⟩) (blk4 m c ⟨b, hn⟩) (blk5 m c ⟨b, hn⟩) (ix2 p q))
      (congrArg (lnAt m c) (Fin.ext (by show b = 16 * (b / 16); omega)))
  | succ k ih =>
    intro hk hn
    have hn' : b + k < cfg0.N := by omega
    have hm := heldAt_middle m c ⟨b + (k + 1), hn⟩ (by show ¬(b + (k + 1)) % 16 = 0; omega)
      (by show ¬(b + (k + 1)) % 16 = 15; omega)
    refine (congrFun (congrArg Prod.fst hm) (ix2 p q)).trans ?_
    exact step_total m c p q b k hb (by omega) hn hn' (ih (by omega) hn')

/-- Before the last hidden tile: after point `t`, with hidden tile `t mod 16`, the buffer holds the running total of the
    partial products of `t`'s row tile up to that hidden tile. -/
theorem total_lt (c : Dev nD) (t : Fin cfg0.N) (hk : t.val % 16 < 15) (p : Fin 512) (q : Fin 2048) :
    (heldAt m c t.val t.isLt).1 (ix2 p q)
      = Cert.Mlp.runningTotal (fun k' => partAt m c (16 * (t.val / 16) + k') p q) (t.val % 16) := by
  have e : 16 * (t.val / 16) + t.val % 16 = t.val := Nat.div_add_mod t.val 16
  have hn : 16 * (t.val / 16) + t.val % 16 < cfg0.N := lt_of_eq_of_lt e t.isLt
  refine (congrFun (congrArg Prod.fst (heldAt_congr m c e.symm t.isLt hn)) (ix2 p q)).trans ?_
  exact total_in_tile m c p q (16 * (t.val / 16)) (by omega) (t.val % 16) hk hn

/-- The last accumulating step of the row tile that starts at position `b`, at position `n = b + 15`. -/
theorem last_step (c : Dev nD) (p : Fin 512) (q : Fin 2048) (b : ℕ) (hb : b % 16 = 0) (n : ℕ) (hn : n < cfg0.N)
    (hp : n - 1 < cfg0.N) (e : n = b + (14 + 1)) :
    k0_pay4 (heldAt m c (n - 1) hp).2 (blk3 m c ⟨n, hn⟩) (blk4 m c ⟨n, hn⟩) (blk5 m c ⟨n, hn⟩)
        (heldAt m c (n - 1) hp).1 (ix2 p q)
      = Cert.Mlp.runningTotal (fun k' => partAt m c (b + k') p q) 15 := by
  subst e
  have hn' : b + 14 < cfg0.N := by omega
  exact step_total m c p q b 14 hb (by omega) hn hn' (total_in_tile m c p q b hb 14 (by omega) hn')

/-- At the last hidden tile: after point `t` the buffer holds the running total of all sixteen partial products of `t`'s row
    tile, plus the second layer's bias row. -/
theorem total_last (c : Dev nD) (t : Fin cfg0.N) (h15 : t.val % 16 = 15) (p : Fin 512) (q : Fin 2048) :
    (heldAt m c t.val t.isLt).1 (ix2 p q)
      = Cert.Mlp.runningTotal (fun k' => partAt m c (16 * (t.val / 16) + k') p q) 15 + blk6 m c t (ix2 (0 : Fin 1) q) := by
  refine (congrFun (congrArg Prod.fst (heldAt_last m c t h15)) (ix2 p q)).trans ?_
  refine (pay1_apply (k0_pay4 (heldAt m c (t.val - 1) (predLt t)).2 (blk3 m c t) (blk4 m c t) (blk5 m c t)
    (heldAt m c (t.val - 1) (predLt t)).1) (blk6 m c t) p q).trans ?_
  exact congrArg (· + blk6 m c t (ix2 (0 : Fin 1) q))
    (last_step m c p q (16 * (t.val / 16)) (by omega) t.val t.isLt (predLt t) (by omega))

end Totals

end Cert.KernelIdeal.TotalValue

end
-- ==== Proof.Blocks.lean ====
/-
  The kernel's seven input blocks, read at an index as entries of the argument arrays.

  The grid is 16 × 16 with the hidden tile innermost: point `t` works on row tile `t / 16` and hidden tile
  `t % 16`.  The rows' block is 512 rows of the first argument; the scale, the shift and the second biases are
  whole vectors viewed as one row; the first weights' block is 512 columns, the first biases' block 512 entries
  and the second weights' block 512 rows, each at the hidden tile.  The vectors reach the kernel through a view
  as one row and the weights through a change of float format, which is the identity on the extended reals.
-/
import proofs.«180789_j79671643341681_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockValue

open Cert.KernelIdeal Cert.KernelIdeal.Gen Idealize.ShloMosaic Idealize.ShloMosaic.TcCoe Idealize.SL.Sem
open Idealize.ShloMosaic.StableHlo
open Idealize.ShloMosaic.ValueIdx (ix1 ix2)

variable (m : (ℓ : Loc nD τ sig) → Buf (Elt Ideal) ℓ)

/-- The block index of every input window at every point of the 16 × 16 grid: the row tile is the point's
    number over 16, the hidden tile its remainder. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 16
    ∧ win0_4.index t (0 : Fin 2) = 0 ∧ win0_4.index t (1 : Fin 2) = t.val % 16
    ∧ win0_5.index t (0 : Fin 2) = t.val % 16 ∧ win0_5.index t (1 : Fin 2) = 0
    ∧ win0_6.index t (0 : Fin 2) = 0 ∧ win0_6.index t (1 : Fin 2) = 0 :=
  (by decide +kernel : ∀ t : Fin grid0.N, _)

/-- A point's number is below 256. -/
theorem point_lt (t : Fin cfg0.N) : t.val < 256 := lt_of_lt_of_eq t.isLt N_0

/-- Window 0: the block of rows at a point is rows `512 · (row tile) …` of the first argument. -/
theorem rows_block (c : Dev nD) (t : Fin cfg0.N) (p : Fin 512) (d : Fin 2048) :
    iblk (F := Ideal) m c 0 t (ix2 p d)
      = (m ((c : Thread nD τ).loc main_arg0) : S8192x2048.Idx → EReal)
          (ix2 ⟨512 * (t.val / 16) + p.val, by have := point_lt t; have := p.isLt; omega⟩ d) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = 512 * (t.val / 16) + p.val; omega
  | ⟨1, _⟩ => show win0_0.index t (1 : Fin 2) * 2048 + 1 * d.val = d.val; omega

/-- The scale's array as the region finds it: the second argument viewed as one row. -/
theorem scale_array (c : Dev nD) :
    (V m c main_v0 : S1x2048.Idx → EReal)
      = shapeCast S1x2048 (m ((c : Thread nD τ).loc main_arg1) : S2048.Idx → EReal) shapeCasts_S2048_S1x2048 := by
  dsimp only [V, hostOps0]
  after_results
  rfl

/-- Window 1: the scale's block at any point is the whole second argument. -/
theorem scale_block (c : Dev nD) (t : Fin cfg0.N) (d : Fin 2048) :
    iblk (F := Ideal) m c 1 t (ix2 (0 : Fin 1) d)
      = (m ((c : Thread nD τ).loc main_arg1) : S2048.Idx → EReal) (ix1 d) := by
  obtain ⟨-, -, e0, e1, -⟩ := idx_facts t
  unfold iblk
  rw [View.read_apply]
  show (V m c main_v0 : S1x2048.Idx → EReal) _ = _
  rw [scale_array]
  refine shapeCast_apply _ _ _ _ ?_
  rw [Shape.rowMajor_val_two]
  show (S2048.rowMajor (ix1 d)).val = _
  rw [Shape.rowMajor_val_one]
  show d.val = (win0_1.index t (0 : Fin 2) * 1 + 1 * 0) * 2048 + (win0_1.index t (1 : Fin 2) * 2048 + 1 * d.val)
  omega

/-- The shift's array as the region finds it: the third argument viewed as one row. -/
theorem shift_array (c : Dev nD) :
    (V m c main_v1 : S1x2048.Idx → EReal)
      = shapeCast S1x2048 (m ((c : Thread nD τ).loc main_arg2) : S2048.Idx → EReal) shapeCasts_S2048_S1x2048 := by
  dsimp only [V, hostOps0]
  after_results
  rfl

/-- Window 2: the shift's block at any point is the whole third argument. -/
theorem shift_block (c : Dev nD) (t : Fin cfg0.N) (d : Fin 2048) :
    iblk (F := Ideal) m c 2 t (ix2 (0 : Fin 1) d)
      = (m ((c : Thread nD τ).loc main_arg2) : S2048.Idx → EReal) (ix1 d) := by
  obtain ⟨-, -, -, -, e0, e1, -⟩ := idx_facts t
  unfold iblk
  rw [View.read_apply]
  show (V m c main_v1 : S1x2048.Idx → EReal) _ = _
  rw [shift_array]
  refine shapeCast_apply _ _ _ _ ?_
  rw [Shape.rowMajor_val_two]
  show (S2048.rowMajor (ix1 d)).val = _
  rw [Shape.rowMajor_val_one]
  show d.val = (win0_2.index t (0 : Fin 2) * 1 + 1 * 0) * 2048 + (win0_2.index t (1 : Fin 2) * 2048 + 1 * d.val)
  omega

/-- The first weights' array as the region finds it: the fourth argument (a change of float format is the
    identity on the extended reals). -/
theorem weights1_array (c : Dev nD) :
    (V m c main_v4 : S2048x8192.Idx → EReal) = (m ((c : Thread nD τ).loc main_arg3) : S2048x8192.Idx → EReal) := by
  dsimp only [V, hostOps0]
  after_results
  rfl

/-- Window 3: the first weights' block at a point is columns `512 · (hidden tile) …` of the fourth argument. -/
theorem weights1_block (c : Dev nD) (t : Fin cfg0.N) (d : Fin 2048) (j : Fin 512) :
    iblk (F := Ideal) m c 3 t (ix2 d j)
      = (m ((c : Thread nD τ).loc main_arg3) : S2048x8192.Idx → EReal)
          (ix2 d ⟨512 * (t.val % 16) + j.val, by have := j.isLt; omega⟩) := by
  obtain ⟨-, -, -, -, -, -, e0, e1, -⟩ := idx_facts t
  unfold iblk
  rw [View.read_apply]
  show (V m c main_v4 : S2048x8192.Idx → EReal) _ = _
  rw [weights1_array]
  congr 1
  funext a
  apply Fin.ext
  match a with
  | ⟨0, _⟩ => show win0_3.index t (0 : Fin 2) * 2048 + 1 * d.val = d.val; omega
  | ⟨1, _⟩ => show win0_3.index t (1 : Fin 2) * 512 + 1 * j.val = 512 * (t.val % 16) + j.val; omega

/-- The first biases' array as the region finds it: the fifth argument viewed as one row. -/
theorem bias1_array (c : Dev nD) :
    (V m c main_v2 : S1x8192.Idx → EReal)
      = shapeCast S1x8192 (m ((c : Thread nD τ).loc main_arg4) : S8192.Idx → EReal) shapeCasts_S8192_S1x8192 := by
  dsimp only [V, hostOps0]
  after_results
  rfl

/-- Window 4: the first biases' block at a point is entries `512 · (hidden tile) …` of the fifth argument. -/
theorem bias1_block (c : Dev nD) (t : Fin cfg0.N) (j : Fin 512) :
    iblk (F := Ideal) m c 4 t (ix2 (0 : Fin 1) j)
      = (m ((c : Thread nD τ).loc main_arg4) : S8192.Idx → EReal)
          (ix1 ⟨512 * (t.val % 16) + j.val, by have := j.isLt; omega⟩) := by
  obtain ⟨-, -, -, -, -, -, -, -, e0, e1, -⟩ := idx_facts t
  unfold iblk
  rw [View.read_apply]
  show (V m c main_v2 : S1x8192.Idx → EReal) _ = _
  rw [bias1_array]
  refine shapeCast_apply _ _ _ _ ?_
  rw [Shape.rowMajor_val_two]
  show (S8192.rowMajor (ix1 (⟨512 * (t.val % 16) + j.val, _⟩ : Fin 8192))).val = _
  rw [Shape.rowMajor_val_one]
  show 512 * (t.val % 16) + j.val
    = (win0_4.index t (0 : Fin 2) * 1 + 1 * 0) * 8192 + (win0_4.index t (1 : Fin 2) * 512 + 1 * j.val)
  omega

/-- The second weights' array as the region finds it: the sixth argument. -/
theorem weights2_array (c : Dev nD) :
    (V m c main_v5 : S8192x2048.Idx → EReal) = (m ((c : Thread nD τ).loc main_arg5) : S8192x2048.Idx → EReal) := by
  dsimp only [V, hostOps0]
  after_results
  rfl

/-- Window 5: the second weights' block at a point is rows `512 · (hidden tile) …` of the sixth argument. -/
theorem weights2_block (c : Dev nD) (t : Fin cfg0.N) (j : Fin 512) (q : Fin 2048) :
    iblk (F := Ideal) m c 5 t (ix2 j q)
      = (m ((c : Thread nD τ).loc main_arg5) : S8192x2048.Idx → EReal)
          (ix2 ⟨512 * (t.val % 16) + j.val, by have := j.isLt; omega⟩ q) := by
  obtain ⟨-, -, -, -, -, -, -, -, -, -, e0, e1, -⟩ := idx_facts t
  unfold iblk
  rw [View.read_apply]
  show (V m c main_v5 : S8192x2048.Idx → EReal) _ = _
  rw [weights2_array]
  congr 1
  funext a
  apply Fin.ext
  match a with
  | ⟨0, _⟩ => show win0_5.index t (0 : Fin 2) * 512 + 1 * j.val = 512 * (t.val % 16) + j.val; omega
  | ⟨1, _⟩ => show win0_5.index t (1 : Fin 2) * 2048 + 1 * q.val = q.val; omega

/-- The second biases' array as the region finds it: the seventh argument viewed as one row. -/
theorem bias2_array (c : Dev nD) :
    (V m c main_v3 : S1x2048.Idx → EReal)
      = shapeCast S1x2048 (m ((c : Thread nD τ).loc main_arg6) : S2048.Idx → EReal) shapeCasts_S2048_S1x2048 := by
  dsimp only [V, hostOps0]
  after_results
  rfl

/-- Window 6: the second biases' block at any point is the whole seventh argument. -/
theorem bias2_block (c : Dev nD) (t : Fin cfg0.N) (q : Fin 2048) :
    iblk (F := Ideal) m c 6 t (ix2 (0 : Fin 1) q)
      = (m ((c : Thread nD τ).loc main_arg6) : S2048.Idx → EReal) (ix1 q) := by
  obtain ⟨-, -, -, -, -, -, -, -, -, -, -, -, e0, e1⟩ := idx_facts t
  unfold iblk
  rw [View.read_apply]
  show (V m c main_v3 : S1x2048.Idx → EReal) _ = _
  rw [bias2_array]
  refine shapeCast_apply _ _ _ _ ?_
  rw [Shape.rowMajor_val_two]
  show (S2048.rowMajor (ix1 q)).val = _
  rw [Shape.rowMajor_val_one]
  show q.val = (win0_6.index t (0 : Fin 2) * 1 + 1 * 0) * 2048 + (win0_6.index t (1 : Fin 2) * 2048 + 1 * q.val)
  omega

end Cert.KernelIdeal.BlockValue

end
-- ==== Proof.TotalResult.lean ====
/-
  At the last hidden tile the output block's buffer holds the specification's output rows.

  After the last point of a row tile the buffer holds the running total of the row tile's sixteen partial
  products plus the second layer's bias row.  Partial product `k` at row `p` and column `q` is the sum, over the
  512 hidden units of tile `k`, of the unit's activation on the normalised row times its second-layer weight;
  the blocks the sixteen points read are the row tile's 512 rows of the first argument, the whole scale, shift
  and second bias, and the `k`-th 512 columns, entries and rows of the first weights, first biases and second
  weights.  So hidden unit `j` of tile `k` is hidden unit `512 · k + j` of the specification, the sixteen
  partial products add up to the sum over all 8192 hidden units, and the buffer's row `p` is the
  specification's output row `512 · (row tile) + p`.
-/
import proofs.«180789_j79671643341681_2_alg».proof.Proof.Total
import proofs.«180789_j79671643341681_2_alg».proof.Proof.Blocks

noncomputable section

namespace Cert.KernelIdeal.TotalValue

open Cert.KernelIdeal Cert.KernelIdeal.Gen Cert.KernelIdeal.Body Cert.KernelIdeal.PayValue Cert.KernelIdeal.BlockValue
open Idealize.ShloMosaic Idealize.ShloMosaic.TcCoe Idealize.ShloMosaic.ValueIdx
open Idealize.SL Idealize.SL.Sem

/-- A hidden unit's pre-activation depends on the row, the weight column and the bias only through their values. -/
theorem hidden_congr {y y' w w' : Fin 2048 → EReal} {β β' : EReal} (hy : y = y') (hw : w = w') (hβ : β = β') :
    Cert.Mlp.hidden y w β = Cert.Mlp.hidden y' w' β' := by
  subst hy hw hβ; rfl

/-- The normalised row depends on the row, the scale and the shift only through their values. -/
theorem rowLN_congr {x x' g g' b b' : Fin 2048 → EReal} (hx : x = x') (hg : g = g') (hb : b = b') :
    Cert.Mlp.rowLN x g b = Cert.Mlp.rowLN x' g' b' := by
  subst hx hg hb; rfl

variable (m : (ℓ : Loc nD τ sig) → Buf (Elt Ideal) ℓ)

/-- The statement over any seven arrays the blocks are pieces of: if at every point the rows' block is the row tile's 512
    rows of `x0`, the scale, shift and second-bias blocks are `x1`, `x2`, `x6` whole, and the first weights', first biases'
    and second weights' blocks are the hidden tile's 512 columns of `x3`, entries of `x4` and rows of `x5`, then after the
    last point of a row tile the buffer's entry `(p, q)` is the specification's result at row `512 · (row tile) + p`. -/
theorem last_of_blocks (c : Dev nD) (x0 : S8192x2048.Idx → EReal) (x1 x2 : S2048.Idx → EReal) (x3 : S2048x8192.Idx → EReal)
    (x4 : S8192.Idx → EReal) (x5 : S8192x2048.Idx → EReal) (x6 : S2048.Idx → EReal)
    (h0 : ∀ (t : Fin cfg0.N) (p : Fin 512) (d : Fin 2048),
      blk0 m c t (ix2 p d) = x0 (ix2 ⟨512 * (t.val / 16) + p.val, by have := point_lt t; have := p.isLt; omega⟩ d))
    (h1 : ∀ (t : Fin cfg0.N) (d : Fin 2048), blk1 m c t (ix2 (0 : Fin 1) d) = x1 (ix1 d))
    (h2 : ∀ (t : Fin cfg0.N) (d : Fin 2048), blk2 m c t (ix2 (0 : Fin 1) d) = x2 (ix1 d))
    (h3 : ∀ (t : Fin cfg0.N) (d : Fin 2048) (j : Fin 512),
      blk3 m c t (ix2 d j) = x3 (ix2 d ⟨512 * (t.val % 16) + j.val, by have := j.isLt; omega⟩))
    (h4 : ∀ (t : Fin cfg0.N) (j : Fin 512),
      blk4 m c t (ix2 (0 : Fin 1) j) = x4 (ix1 ⟨512 * (t.val % 16) + j.val, by have := j.isLt; omega⟩))
    (h5 : ∀ (t : Fin cfg0.N) (j : Fin 512) (q : Fin 2048),
      blk5 m c t (ix2 j q) = x5 (ix2 ⟨512 * (t.val % 16) + j.val, by have := j.isLt; omega⟩ q))
    (h6 : ∀ (t : Fin cfg0.N) (q : Fin 2048), blk6 m c t (ix2 (0 : Fin 1) q) = x6 (ix1 q))
    (t : Fin cfg0.N) (h15 : t.val % 16 = 15) (p : Fin 512) (q : Fin 2048) :
    (heldAt m c t.val t.isLt).1 (ix2 p q)
      = Cert.Mlp.result x0 x1 x2 x3 x4 x5 x6
          (ix2 ⟨512 * (t.val / 16) + p.val, by have := point_lt t; have := p.isLt; omega⟩ q) := by
  refine (total_last m c t h15 p q).trans ?_
  show _ = (∑ j : Fin 8192, Cert.Mlp.act (fun d => x0 (ix2 ⟨512 * (t.val / 16) + p.val, by have := point_lt t; have := p.isLt; omega⟩ d))
        (fun d => x1 (ix1 d)) (fun d => x2 (ix1 d)) (fun d j => x3 (ix2 d j)) (fun j => x4 (ix1 j)) j * x5 (ix2 j q)) + x6 (ix1 q)
  refine congrArg₂ (· + ·) ?_ (h6 t q)
  refine Cert.Mlp.runningTotal_fifteen_eq_sum
    (fun j : Fin 8192 => Cert.Mlp.act (fun d => x0 (ix2 ⟨512 * (t.val / 16) + p.val, by have := point_lt t; have := p.isLt; omega⟩ d))
        (fun d => x1 (ix1 d)) (fun d => x2 (ix1 d)) (fun d j => x3 (ix2 d j)) (fun j => x4 (ix1 j)) j * x5 (ix2 j q))
    (fun k' => partAt m c (16 * (t.val / 16) + k') p q) (fun k => ?_)
  have hk := k.isLt
  have hn : 16 * (t.val / 16) + k.val < cfg0.N := by have := t.isLt; omega
  refine (partAt_eq m c (16 * (t.val / 16) + k.val) hn p q).trans ?_
  refine (pay3_apply (lnAt m c (tileStart (16 * (t.val / 16) + k.val) hn)) (blk3 m c ⟨16 * (t.val / 16) + k.val, hn⟩)
    (blk4 m c ⟨16 * (t.val / 16) + k.val, hn⟩) (blk5 m c ⟨16 * (t.val / 16) + k.val, hn⟩) p q).trans ?_
  refine Finset.sum_congr rfl fun j _ => ?_
  have hj := j.isLt
  refine congrArg₂ (· * ·) (congrArg Cert.Mlp.gelu (hidden_congr ?_ ?_ ?_)) ?_
  · funext d
    refine (pay2_apply (blk0 m c (tileStart (16 * (t.val / 16) + k.val) hn)) (blk1 m c (tileStart (16 * (t.val / 16) + k.val) hn))
      (blk2 m c (tileStart (16 * (t.val / 16) + k.val) hn)) p d).trans ?_
    refine congrFun (rowLN_congr (funext fun e => ?_) (funext fun e => h1 _ e) (funext fun e => h2 _ e)) d
    refine (h0 _ p e).trans (congrArg (fun r => x0 (ix2 r e)) (Fin.ext ?_))
    show 512 * (16 * ((16 * (t.val / 16) + k.val) / 16) / 16) + p.val = 512 * (t.val / 16) + p.val
    omega
  · funext d
    refine (h3 _ d j).trans (congrArg (fun r => x3 (ix2 d r)) (Fin.ext ?_))
    show 512 * ((16 * (t.val / 16) + k.val) % 16) + j.val = 512 * k.val + j.val
    omega
  · refine (h4 _ j).trans (congrArg (fun r => x4 (ix1 r)) (Fin.ext ?_))
    show 512 * ((16 * (t.val / 16) + k.val) % 16) + j.val = 512 * k.val + j.val
    omega
  · refine (h5 _ j q).trans (congrArg (fun r => x5 (ix2 r q)) (Fin.ext ?_))
    show 512 * ((16 * (t.val / 16) + k.val) % 16) + j.val = 512 * k.val + j.val
    omega

/-- After the last point of a row tile, entry `(p, q)` of the output block's buffer is the specification's result, on the
    seven argument arrays, at row `512 · (row tile) + p` and column `q`. -/
theorem last_is_result (c : Dev nD) (t : Fin cfg0.N) (h15 : t.val % 16 = 15) (p : Fin 512) (q : Fin 2048) :
    (heldAt m c t.val t.isLt).1 (ix2 p q)
      = Cert.Mlp.result (m ((c : Thread nD τ).loc main_arg0) : S8192x2048.Idx → EReal)
          (m ((c : Thread nD τ).loc main_arg1) : S2048.Idx → EReal) (m ((c : Thread nD τ).loc main_arg2) : S2048.Idx → EReal)
          (m ((c : Thread nD τ).loc main_arg3) : S2048x8192.Idx → EReal) (m ((c : Thread nD τ).loc main_arg4) : S8192.Idx → EReal)
          (m ((c : Thread nD τ).loc main_arg5) : S8192x2048.Idx → EReal) (m ((c : Thread nD τ).loc main_arg6) : S2048.Idx → EReal)
          (ix2 ⟨512 * (t.val / 16) + p.val, by have := point_lt t; have := p.isLt; omega⟩ q) :=
  last_of_blocks m c _ _ _ _ _ _ _ (fun t p d => rows_block m c t p d) (fun t d => scale_block m c t d)
    (fun t d => shift_block m c t d) (fun t d j => weights1_block m c t d j) (fun t j => bias1_block m c t j)
    (fun t j q => weights2_block m c t j q) (fun t q => bias2_block m c t q) t h15 p q

end Cert.KernelIdeal.TotalValue

end
-- ==== Proof.Whole.lean ====
/-
  From the blocks to the whole result array, at the extended reals.

  The pipeline writes the output block back once per row tile, after its last hidden tile, when the block holds the finished
  rows: by then each entry is the specification's value at the matching row of the whole array.  The sixteen write-backs
  tile the array by rows — the point that writes row `r` is the last hidden tile of row tile `r / 512` — so the array ends
  holding the specification's result of the seven arguments, entry by entry.
-/
import proofs.«180789_j79671643341681_2_alg».proof.Proof.Held
import proofs.«180789_j79671643341681_2_alg».proof.Proof.TotalResult
import Idealize.ShloMosaic.Lib.Pipeline.Value
import Idealize.ShloMosaic.Lib.ValueIdx

set_option maxRecDepth 16384

noncomputable section

namespace Cert.KernelIdeal.WholeValue

open Cert.KernelIdeal Cert.KernelIdeal.Gen Cert.KernelIdeal.Body Cert.KernelIdeal.TotalValue Cert.KernelIdeal.BlockValue
open Idealize.ShloMosaic Idealize.ShloMosaic.TcCoe Idealize.SL.Sem
open Idealize.ShloMosaic.Pipeline (Dat Cfg Window)
open Idealize.ShloMosaic.ValueIdx (ix1 ix2 eq_ix2)

variable (m : (ℓ : Loc nD τ sig) → Buf (Elt Ideal) ℓ)

/-- Where the output window's block sits at each point: row tile `t / 16`, all columns, never clipped. -/
theorem out_facts : ∀ t : Fin cfg0.N,
    win0_7.index t (0 : Fin 2) = t.val / 16 ∧ win0_7.index t (1 : Fin 2) = 0
      ∧ win0_7.xsize (grid0.coords t) (0 : Fin 2) = 512 ∧ win0_7.xsize (grid0.coords t) (1 : Fin 2) = 2048 :=
  (by decide +kernel : ∀ t : Fin grid0.N, _)

/-- The specification's result of the seven arguments as launched, as contents of the result array. -/
def resultOf (c : Dev nD) : Buf (Elt Ideal) ((c : Thread nD τ).loc main_v6) :=
  Cert.Mlp.result (m ((c : Thread nD τ).loc main_arg0) : S8192x2048.Idx → EReal)
    (m ((c : Thread nD τ).loc main_arg1) : S2048.Idx → EReal)
    (m ((c : Thread nD τ).loc main_arg2) : S2048.Idx → EReal)
    (m ((c : Thread nD τ).loc main_arg3) : S2048x8192.Idx → EReal)
    (m ((c : Thread nD τ).loc main_arg4) : S8192.Idx → EReal)
    (m ((c : Thread nD τ).loc main_arg5) : S8192x2048.Idx → EReal)
    (m ((c : Thread nD τ).loc main_arg6) : S2048.Idx → EReal)

/-- What a write-back writes: the finished rows of its row tile, which are the result's rows there. -/
theorem flushed_eq (c : Dev nD) (t : Fin cfg0.N) (hf : (cfg0.win 7).flush t = true) :
    (dats m 0 c).flushed 7 t = ((cfg0.win 7).blk t).view.read (Elt Ideal) (resultOf m c) := by
  have h15 : t.val % 16 = 15 := (flush0_7 t).mp hf
  obtain ⟨e0, e1, -, -⟩ := out_facts t
  show (cfg0.win 7).cut (grid0.coords t) ((dats m 0 c).after 7 t) = _
  rw [after7]
  funext y
  obtain ⟨p, q, rfl⟩ : ∃ (p : Fin 512) (q : Fin 2048), y = ix2 p q := ⟨y 0, y 1, eq_ix2 y⟩
  rw [View.read_apply]
  refine (last_is_result m c t h15 p q).trans ?_
  unfold resultOf
  congr 1
  funext a
  apply Fin.ext
  match a with
  | ⟨0, _⟩ => show 512 * (t.val / 16) + p.val = win0_7.index t (0 : Fin 2) * 512 + 1 * p.val; omega
  | ⟨1, _⟩ => show q.val = win0_7.index t (1 : Fin 2) * 2048 + 1 * q.val; omega

/-- The point that writes back row `r`: the last hidden tile of row tile `r / 512`. -/
def writer (r : Fin 8192) : Fin cfg0.N := ⟨16 * (r.val / 512) + 15, by have := r.isLt; rw [show cfg0.N = 256 from N_0]; omega⟩

/-- So the result array ends holding the specification's result. -/
theorem final_out (c : Dev nD) : (dats m 0 c).arrAt 7 cfg0.N = resultOf m c :=
  (dats m 0 c).arrAt_eq_of_cover 7 (resultOf m c) (flushed_eq m c) fun i => by
    have h0 : (i 0 : Nat) < 8192 := (i 0).isLt
    have h1 : (i 1 : Nat) < 2048 := (i 1).isLt
    obtain ⟨e0, e1, s0, s1⟩ := out_facts (writer ⟨(i 0 : Nat), h0⟩)
    refine ⟨writer ⟨(i 0 : Nat), h0⟩, (flush0_7 _).mpr (by show (16 * ((i 0 : Nat) / 512) + 15) % 16 = 15; omega), ?_⟩
    show i ∈ ((View.whole main_v6).slice (win0_7.rect (writer ⟨(i 0 : Nat), h0⟩))).set
    rw [View.set_slice_whole, Rect.mem_set_unit]
    intro a
    have ew : (writer ⟨(i 0 : Nat), h0⟩).val / 16 = (i 0 : Nat) / 512 := by show (16 * ((i 0 : Nat) / 512) + 15) / 16 = _; omega
    match a with
    | ⟨0, _⟩ =>
      show win0_7.index (writer ⟨(i 0 : Nat), h0⟩) 0 * win0_7.size 0 ≤ (i 0 : Nat)
        ∧ (i 0 : Nat) < win0_7.index (writer ⟨(i 0 : Nat), h0⟩) 0 * win0_7.size 0 + win0_7.xsize (grid0.coords (writer ⟨(i 0 : Nat), h0⟩)) 0
      rw [e0, s0, ew, show win0_7.size 0 = 512 from rfl]; omega
    | ⟨1, _⟩ =>
      show win0_7.index (writer ⟨(i 0 : Nat), h0⟩) 1 * win0_7.size 1 ≤ (i 1 : Nat)
        ∧ (i 1 : Nat) < win0_7.index (writer ⟨(i 0 : Nat), h0⟩) 1 * win0_7.size 1 + win0_7.xsize (grid0.coords (writer ⟨(i 0 : Nat), h0⟩)) 1
      rw [e1, s1, show win0_7.size 1 = 2048 from rfl]; omega

end Cert.KernelIdeal.WholeValue

end
-- ==== Proof.RefIsSpec.lean ====
/-
  The reference program computes the specification.

  The reference's operations are read one at a time, row by row: the mean of a row, its variance, the
  normalised row, a hidden unit, its activation, and an entry of the output row.  Each stage is identified
  with the corresponding definition of the specification at an index written by its coordinates; the last
  stage is the whole result.
-/
import proofs.«180789_j79671643341681_2_alg».proof.Proof.Gen.ReferenceIdeal.Read
import proofs.«180789_j79671643341681_2_alg».proof.Proof.Spec

noncomputable section

namespace Cert.ReferenceIdeal.RefValue

open Cert.ReferenceIdeal Cert.ReferenceIdeal.Gen Cert.ReferenceIdeal.Read Idealize.ShloMosaic Cert.Mlp
open Idealize.ShloMosaic.ValueIdx (ix1 ix2 eq_ix2)

variable (x0 : (⟨S8192x2048, .f32⟩ : BufTy).Contents (Elt Ideal))
  (x1 x2 : (⟨S2048, .f32⟩ : BufTy).Contents (Elt Ideal))
  (x3 : (⟨S2048x8192, .f32⟩ : BufTy).Contents (Elt Ideal))
  (x4 : (⟨S8192, .f32⟩ : BufTy).Contents (Elt Ideal))
  (x5 : (⟨S8192x2048, .f32⟩ : BufTy).Contents (Elt Ideal))
  (x6 : (⟨S2048, .f32⟩ : BufTy).Contents (Elt Ideal))

/-- The mean of row `p`: the sum of the row over the row length. -/
theorem mean_at (p : Fin 8192) (c : Fin 1) :
    val_main_v3 (F := Ideal) x0 (ix2 p c) = rowMean (fun d => x0 (ix2 p d)) := by
  have e : ∀ k : Fin 2048, idx_main_v0 (idx_main_v1 (ix2 p c)) k = ix2 p k := fun k =>
    funext fun a => Fin.ext (by match a with | ⟨0, _⟩ => rfl | ⟨1, _⟩ => rfl)
  rw [val_main_v3_apply, val_main_v1_apply, val_main_v0_apply, val_main_v2_apply, val_main_cst_0_apply,
    val_main_cst_apply]
  simp only [e, Ideal.hostDivf_def, Ideal.ofBits_def, Ideal.ofBits_zero_f32, zero_add]
  rfl

/-- An entry of row `p` less the row's mean (as the variance reads it). -/
theorem centred_at (p : Fin 8192) (q : Fin 2048) :
    val_main_v5 (F := Ideal) x0 (ix2 p q) = x0 (ix2 p q) - rowMean (fun d => x0 (ix2 p d)) := by
  have e : idx_main_v4 (ix2 p q) = ix2 p (0 : Fin 1) :=
    funext fun a => Fin.ext (by match a with | ⟨0, _⟩ => rfl | ⟨1, _⟩ => rfl)
  rw [val_main_v5_apply, val_main_v4_apply, e, mean_at, Ideal.subf_def]

/-- The same difference, as the normalisation reads it. -/
theorem centred_at' (p : Fin 8192) (q : Fin 2048) :
    val_main_v12 (F := Ideal) x0 (ix2 p q) = x0 (ix2 p q) - rowMean (fun d => x0 (ix2 p d)) := by
  have e : idx_main_v11 (ix2 p q) = ix2 p (0 : Fin 1) :=
    funext fun a => Fin.ext (by match a with | ⟨0, _⟩ => rfl | ⟨1, _⟩ => rfl)
  rw [val_main_v12_apply, val_main_v11_apply, e, mean_at, Ideal.subf_def]

/-- The variance of row `p`: the sum of the squared differences over the row length. -/
theorem var_at (p : Fin 8192) (c : Fin 1) :
    val_main_v10 (F := Ideal) x0 (ix2 p c) = rowVar (fun d => x0 (ix2 p d)) := by
  have e : ∀ k : Fin 2048, idx_main_v7 (idx_main_v8 (ix2 p c)) k = ix2 p k := fun k =>
    funext fun a => Fin.ext (by match a with | ⟨0, _⟩ => rfl | ⟨1, _⟩ => rfl)
  rw [val_main_v10_apply, val_main_v8_apply, val_main_v7_apply, val_main_v9_apply, val_main_cst_2_apply,
    val_main_cst_1_apply]
  simp only [e, val_main_v6_apply, centred_at, Ideal.hostDivf_def, Ideal.mulf_def, Ideal.ofBits_def,
    Ideal.ofBits_zero_f32, zero_add]
  rfl

/-- Entry `q` of the normalised row `p`. -/
theorem ln_at (p : Fin 8192) (q : Fin 2048) :
    val_main_v23 (F := Ideal) x0 x1 x2 (ix2 p q)
      = rowLN (fun d => x0 (ix2 p d)) (fun d => x1 (ix1 d)) (fun d => x2 (ix1 d)) q := by
  have e16 : idx_main_v16 (ix2 p q) = ix2 p (0 : Fin 1) :=
    funext fun a => Fin.ext (by match a with | ⟨0, _⟩ => rfl | ⟨1, _⟩ => rfl)
  have e19 : idx_main_v18 (idx_main_v19 (ix2 p q)) = ix1 q :=
    funext fun a => Fin.ext (by match a with | ⟨0, _⟩ => rfl)
  have e22 : idx_main_v21 (idx_main_v22 (ix2 p q)) = ix1 q :=
    funext fun a => Fin.ext (by match a with | ⟨0, _⟩ => rfl)
  rw [val_main_v23_apply, val_main_v20_apply, val_main_v17_apply, centred_at', val_main_v16_apply, e16,
    val_main_v15_apply, val_main_v14_apply, var_at, val_main_v13_apply, val_main_cst_3_apply,
    val_main_v19_apply, val_main_v18_apply, e19, val_main_v22_apply, val_main_v21_apply, e22]
  simp only [Ideal.addf_def, Ideal.mulf_def, Ideal.hostUnary_rsqrt_def, Ideal.ofBits_def]
  rfl

/-- Hidden unit `j` on row `p`: the normalised row against column `j` of the first weights, plus the bias. -/
theorem hidden_at (p : Fin 8192) (j : Fin 8192) :
    val_main_v27 (F := Ideal) x0 x1 x2 x3 x4 (ix2 p j)
      = hidden (rowLN (fun d => x0 (ix2 p d)) (fun d => x1 (ix1 d)) (fun d => x2 (ix1 d)))
          (fun d => x3 (ix2 d j)) (x4 (ix1 j)) := by
  have el : ∀ k : Fin 2048, lidx_main_v24 (ix2 p j) k = ix2 p k := fun k =>
    funext fun a => Fin.ext (by match a with | ⟨0, _⟩ => rfl | ⟨1, _⟩ => rfl)
  have er : ∀ k : Fin 2048, ridx_main_v24 (ix2 p j) k = ix2 k j := fun k =>
    funext fun a => Fin.ext (by match a with | ⟨0, _⟩ => rfl | ⟨1, _⟩ => rfl)
  have e26 : idx_main_v25 (idx_main_v26 (ix2 p j)) = ix1 j :=
    funext fun a => Fin.ext (by match a with | ⟨0, _⟩ => rfl)
  rw [val_main_v27_apply, val_main_v24_apply, val_main_v26_apply, val_main_v25_apply, e26, Ideal.addf_def]
  simp only [el, er, ln_at]
  rfl

/-- The activation of hidden unit `j` on row `p`.  The reference cubes the hidden value as
    `(h * h) * h`, the specification as `h * (h * h)`. -/
theorem act_at (p : Fin 8192) (j : Fin 8192) :
    val_main_v40 (F := Ideal) x0 x1 x2 x3 x4 (ix2 p j)
      = act (fun d => x0 (ix2 p d)) (fun d => x1 (ix1 d)) (fun d => x2 (ix1 d))
          (fun d j => x3 (ix2 d j)) (fun j => x4 (ix1 j)) j := by
  rw [val_main_v40_apply, val_main_v39_apply, val_main_v38_apply, val_main_cst_7_apply, val_main_v37_apply,
    val_main_v36_apply, val_main_cst_6_apply, val_main_v35_apply, val_main_v34_apply, val_main_v33_apply,
    val_main_cst_5_apply, val_main_v32_apply, val_main_v31_apply, val_main_v30_apply, val_main_cst_4_apply,
    val_main_v29_apply, val_main_v28_apply, hidden_at]
  simp only [Ideal.addf_def, Ideal.mulf_def, Ideal.hostUnary_tanh_def, Ideal.ofBits_def]
  show _ = gelu (hidden (rowLN (fun d => x0 (ix2 p d)) (fun d => x1 (ix1 d)) (fun d => x2 (ix1 d)))
    (fun d => x3 (ix2 d j)) (x4 (ix1 j)))
  generalize hidden (rowLN (fun d => x0 (ix2 p d)) (fun d => x1 (ix1 d)) (fun d => x2 (ix1 d)))
    (fun d => x3 (ix2 d j)) (x4 (ix1 j)) = h
  rw [mul_comm (h * h) h]
  rfl

/-- The reference's result is the specification's, entry by entry. -/
theorem ref_is_result :
    val_main_v44 (F := Ideal) x0 x1 x2 x3 x4 x5 x6 = Cert.Mlp.result x0 x1 x2 x3 x4 x5 x6 := by
  funext i
  obtain ⟨p, q, rfl⟩ : ∃ (p : Fin 8192) (q : Fin 2048), i = ix2 p q := ⟨i 0, i 1, eq_ix2 i⟩
  have el : ∀ k : Fin 8192, lidx_main_v41 (ix2 p q) k = ix2 p k := fun k =>
    funext fun a => Fin.ext (by match a with | ⟨0, _⟩ => rfl | ⟨1, _⟩ => rfl)
  have er : ∀ k : Fin 8192, ridx_main_v41 (ix2 p q) k = ix2 k q := fun k =>
    funext fun a => Fin.ext (by match a with | ⟨0, _⟩ => rfl | ⟨1, _⟩ => rfl)
  have e43 : idx_main_v42 (idx_main_v43 (ix2 p q)) = ix1 q :=
    funext fun a => Fin.ext (by match a with | ⟨0, _⟩ => rfl)
  rw [val_main_v44_apply, val_main_v41_apply, val_main_v43_apply, val_main_v42_apply, e43, Ideal.addf_def]
  simp only [el, er, act_at]
  rfl

end Cert.ReferenceIdeal.RefValue

end
-- ==== Proof.lean ====
/-
  A fused LayerNorm → dense → GELU → dense kernel against its plain reference, over the extended reals.

  Each of the 8192 rows is normalised (mean and variance over its 2048 entries, a small constant under the reciprocal
  square root, a scale and a shift), multiplied by a 2048×8192 weight matrix with a bias, passed through the tanh form of
  GELU, and multiplied by an 8192×2048 weight matrix with a second bias.  The reference does this on whole arrays.  The kernel
  walks a 16×16 grid: for each tile of 512 rows it normalises the rows once, at the first of sixteen tiles of 512 hidden units,
  keeps them in a scratch, and at every hidden tile adds that tile's partial product to the output block, the second bias on
  top at the last, after which the block is written back.

  The two agree entry by entry because a sum over the 8192 hidden units is the sum of its sixteen consecutive blocks of 512,
  added in order: only the associativity and commutativity of addition on the extended reals are used, so the precondition
  (finite inputs) is never opened.  Changes of float format are the identity there, the kernel's matrix products into a zero
  accumulator and the reference's are the same sums, and the two programs share every literal word.

  The pieces: `Spec` states the mathematics once; `RefIsSpec` reads the reference's run as it; `Cases`, the three runs,
  `Pieces`, `Held` and `Obligation` run the kernel's body at every grid point and give its frame at any float instance
  (`Bits/` holds the same for the word-level program); `PayRows`, `PayNorm`, `Blocks`, `Total`, `TotalResult` and
  `BlockSum` read what the body computes at an index and join the sixteen partial products; `Whole` passes from the
  written-back blocks to the whole array.
-/
import proofs.«180789_j79671643341681_2_alg».proof.Defs
import proofs.«180789_j79671643341681_2_alg».proof.Proof.Gen.Kernel
import proofs.«180789_j79671643341681_2_alg».proof.Proof.Gen.KernelIdeal
import proofs.«180789_j79671643341681_2_alg».proof.Proof.Gen.ReferenceIdeal
import proofs.«180789_j79671643341681_2_alg».proof.Proof.Gen.ReferenceIdeal.Run
import proofs.«180789_j79671643341681_2_alg».proof.Proof.Gen.ReferenceIdeal.Read
import proofs.«180789_j79671643341681_2_alg».proof.Proof.Gen.Pre_finite_inputs
import proofs.«180789_j79671643341681_2_alg».proof.Proof.Bits.Obligation
import proofs.«180789_j79671643341681_2_alg».proof.Proof.Obligation
import proofs.«180789_j79671643341681_2_alg».proof.Proof.Whole
import proofs.«180789_j79671643341681_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Body.frame (F := Bits) m ρ

/-- So does its idealization. -/
theorem frame_ideal : Cert.frame_KernelIdeal := fun m ρ _ => Cert.KernelIdeal.Body.frame (F := Ideal) m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- At the extended reals the kernel's run ends with the result array at the specification's result of its arguments,
    and the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v6) = Cert.KernelIdeal.WholeValue.resultOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c =>
    ⟨((h c).1 7).trans (Cert.KernelIdeal.WholeValue.final_out m c),
      ((h c).1 0).trans ((((Cert.KernelIdeal.Body.dats m 0 c).arrAt_in 0 rfl _).trans ((Cert.KernelIdeal.Body.A_eq m c 0).trans (Cert.KernelIdeal.Gen.V_main_arg0 m c)))),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c)⟩)
    (Cert.KernelIdeal.Body.run_main (F := Ideal) m ρ)

/-- From memories that agree on the arguments the two idealized programs end with equal results: the kernel's array at the
    specification's result (`kernel_run`), the reference's at the same function of the same arguments. -/
theorem algebraic : Cert.algebraic_KernelIdeal_ReferenceIdeal := by
  intro m ρ m' ρ' _ hagree
  refine ⟨fun c => Cert.KernelIdeal.WholeValue.resultOf m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.ref_is_result,
    (hagree c).1, (hagree c).2.1, (hagree c).2.2.1, (hagree c).2.2.2.1, (hagree c).2.2.2.2.1, (hagree c).2.2.2.2.2.1,
    (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
